-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S128x64 .f32) (main_arg9 : FVec F S64 .f32) (main_arg10 : FVec F S128x64 .f32) (main_v33 : IVec S_ 1) : IVec S_ 1 :=
  let main_v34 : FVec F S128x64 .f32 := Host.absf main_arg8
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S128x64 .f32 := Host.absf main_arg10
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  main_v48

def fn_part1 {F : FTy → Type} [FloatOps F] (main_arg5 : FVec F S128x128 .f32) (main_arg6 : FVec F S128 .f32) (main_arg7 : FVec F S128x128 .f32) (main_arg8 : FVec F S128x64 .f32) (main_arg9 : FVec F S64 .f32) (main_arg10 : FVec F S128x64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) (main_arg8 : FVec F S128x64 .f32) (main_arg9 : FVec F S64 .f32) (main_arg10 : FVec F S128x64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S5000x128 : Shape := ⟨2, ![5000, 128]⟩
abbrev S5000 : Shape := ⟨1, ![5000]⟩
abbrev S5000x1 : Shape := ⟨2, ![5000, 1]⟩
abbrev S1x64 : Shape := ⟨2, ![1, 64]⟩
abbrev S100000x64 : Shape := ⟨2, ![100000, 64]⟩
abbrev S5000x64 : Shape := ⟨2, ![5000, 64]⟩

abbrev nBuf : Space → Nat
  | .hbm => 79
  | .vmem => 27
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x64, .f32⟩
  | .hbm, ⟨9, _⟩ => ⟨S64, .f32⟩
  | .hbm, ⟨10, _⟩ => ⟨S128x64, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .f32⟩
  | .hbm, ⟨16, _⟩ => ⟨S1600000, .f32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000x128, .f32⟩
  | .hbm, ⟨37, _⟩ => ⟨S_, .f32⟩
  | .hbm, ⟨38, _⟩ => ⟨S100000x128, .f32⟩
  | .hbm, ⟨39, _⟩ => ⟨S1600000x1, .i32⟩
  | .hbm, ⟨40, _⟩ => ⟨S100000x128, .f32⟩
  | .hbm, ⟨41, _⟩ => ⟨S100000x128, .f32⟩
  | .hbm, ⟨42, _⟩ => ⟨S100000x128, .f32⟩
  | .hbm, ⟨43, _⟩ => ⟨S1x128, .f32⟩
  | .hbm, ⟨44, _⟩ => ⟨S100000x128, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x128, .f32⟩
  | .hbm, ⟨54, _⟩ => ⟨S_, .f32⟩
  | .hbm, ⟨55, _⟩ => ⟨S100000x128, .f32⟩
  | .hbm, ⟨56, _⟩ => ⟨S1600000x1, .i32⟩
  | .hbm, ⟨57, _⟩ => ⟨S100000x128, .f32⟩
  | .hbm, ⟨58, _⟩ => ⟨S100000x128, .f32⟩
  | .hbm, ⟨59, _⟩ => ⟨S100000x128, .f32⟩
  | .hbm, ⟨60, _⟩ => ⟨S1x128, .f32⟩
  | .hbm, ⟨61, _⟩ => ⟨S100000x128, .f32⟩
  | .hbm, ⟨62, _⟩ => ⟨S_, .i32⟩
  | .hbm, ⟨63, _⟩ => ⟨S1600000, .i32⟩
  | .hbm, ⟨64, _⟩ => ⟨S1600000, .i1⟩
  | .hbm, ⟨65, _⟩ => ⟨S_, .i32⟩
  | .hbm, ⟨66, _⟩ => ⟨S1600000, .i32⟩
  | .hbm, ⟨67, _⟩ => ⟨S1600000, .i32⟩
  | .hbm, ⟨68, _⟩ => ⟨S1600000, .i32⟩
  | .hbm, ⟨69, _⟩ => ⟨S1600000x1, .i32⟩
  | .hbm, ⟨70, _⟩ => ⟨S1600000x128, .f32⟩
  | .hbm, ⟨71, _⟩ => ⟨S_, .f32⟩
  | .hbm, ⟨72, _⟩ => ⟨S100000x128, .f32⟩
  | .hbm, ⟨73, _⟩ => ⟨S1600000x1, .i32⟩
  | .hbm, ⟨74, _⟩ => ⟨S100000x128, .f32⟩
  | .hbm, ⟨75, _⟩ => ⟨S100000x128, .f32⟩
  | .hbm, ⟨76, _⟩ => ⟨S100000x128, .f32⟩
  | .hbm, ⟨77, _⟩ => ⟨S1x64, .f32⟩
  | .hbm, ⟨78, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x64, .f32⟩
  | .local _ .vmem, ⟨23, _⟩ => ⟨S1x64, .f32⟩
  | .local _ .vmem, ⟨24, _⟩ => ⟨S128x64, .f32⟩
  | .local _ .vmem, ⟨25, _⟩ => ⟨S5000x64, .f32⟩
  | .local _ .vmem, ⟨26, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c : Ref sig .tc := ⟨.hbm, 28, rfl⟩
abbrev main_v13 : Ref sig .tc := ⟨.hbm, 29, rfl⟩
abbrev main_v14 : Ref sig .tc := ⟨.hbm, 30, rfl⟩
abbrev main_c_3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_5 : Ref sig .tc := ⟨.hbm, 45, rfl⟩
abbrev main_v27 : Ref sig .tc := ⟨.hbm, 46, rfl⟩
abbrev main_v28 : Ref sig .tc := ⟨.hbm, 47, rfl⟩
abbrev main_c_6 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_7 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_c_8 : Ref sig .tc := ⟨.hbm, 62, rfl⟩
abbrev main_v41 : Ref sig .tc := ⟨.hbm, 63, rfl⟩
abbrev main_v42 : Ref sig .tc := ⟨.hbm, 64, rfl⟩
abbrev main_c_9 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_10 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reduces_S5000x64_S5000 : S5000x64.Reduces [1] S5000
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .f32 = 32 ∨ (Rect.block (s := S128x64) S128x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x64.size a ≤ S128x64.size a
  hwx2_4 : ∀ i : grid2.Coords, EltTy.bits .f32 = 32 ∨ (Rect.block (s := S128x64) S128x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S100000x64.size a
  hwx2_5 : ∀ i : grid2.Coords, EltTy.bits .f32 = 32 ∨ (Rect.block (s := S100000x64) S5000x64.size (cc2_transform_5 i) (hinb2_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v24) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v38) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v39) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v52) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v40) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v53) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S128x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v54) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S100000x64 : Shape := ⟨2, ![100000, 64]⟩
abbrev S1x64 : Shape := ⟨2, ![1, 64]⟩

abbrev nBuf : Space → Nat
  | .hbm => 144
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x128, .f32⟩
  | 5 => ⟨S128x128, .f32⟩
  | 6 => ⟨S128, .f32⟩
  | 7 => ⟨S128x128, .f32⟩
  | 8 => ⟨S128x64, .f32⟩
  | 9 => ⟨S64, .f32⟩
  | 10 => ⟨S128x64, .f32⟩
  | 11 => ⟨S1x1600000, .i32⟩
  | 12 => ⟨S1600000, .i32⟩
  | 13 => ⟨S1x1600000, .i32⟩
  | 14 => ⟨S1600000, .i32⟩
  | 15 => ⟨S_, .i32⟩
  | 16 => ⟨S1600000, .i32⟩
  | 17 => ⟨S1600000, .i1⟩
  | 18 => ⟨S_, .i32⟩
  | 19 => ⟨S1600000, .i32⟩
  | 20 => ⟨S1600000, .i32⟩
  | 21 => ⟨S1600000, .i32⟩
  | 22 => ⟨S1600000x1, .i32⟩
  | 23 => ⟨S1600000x128, .f32⟩
  | 24 => ⟨S_, .f32⟩
  | 25 => ⟨S100000x128, .f32⟩
  | 26 => ⟨S1600000x1, .i32⟩
  | 27 => ⟨S100000x128, .f32⟩
  | 28 => ⟨S_, .f32⟩
  | 29 => ⟨S1600000, .f32⟩
  | 30 => ⟨S_, .f32⟩
  | 31 => ⟨S100000, .f32⟩
  | 32 => ⟨S1600000x1, .i32⟩
  | 33 => ⟨S100000, .f32⟩
  | 34 => ⟨S_, .f32⟩
  | 35 => ⟨S100000, .f32⟩
  | 36 => ⟨S100000, .f32⟩
  | 37 => ⟨S100000x1, .f32⟩
  | 38 => ⟨S100000x128, .f32⟩
  | 39 => ⟨S100000x128, .f32⟩
  | 40 => ⟨S100000x128, .f32⟩
  | 41 => ⟨S1x128, .f32⟩
  | 42 => ⟨S100000x128, .f32⟩
  | 43 => ⟨S100000x128, .f32⟩
  | 44 => ⟨S100000x128, .f32⟩
  | 45 => ⟨S100000x128, .f32⟩
  | 46 => ⟨S100000x128, .f32⟩
  | 47 => ⟨S_, .f32⟩
  | 48 => ⟨S100000, .f32⟩
  | 49 => ⟨S100000x1, .f32⟩
  | 50 => ⟨S100000x1, .f32⟩
  | 51 => ⟨S_, .f32⟩
  | 52 => ⟨S100000x1, .f32⟩
  | 53 => ⟨S100000x1, .f32⟩
  | 54 => ⟨S100000x128, .f32⟩
  | 55 => ⟨S100000x128, .f32⟩
  | 56 => ⟨S_, .f32⟩
  | 57 => ⟨S100000x128, .f32⟩
  | 58 => ⟨S100000x128, .f32⟩
  | 59 => ⟨S_, .i32⟩
  | 60 => ⟨S1600000, .i32⟩
  | 61 => ⟨S1600000, .i1⟩
  | 62 => ⟨S_, .i32⟩
  | 63 => ⟨S1600000, .i32⟩
  | 64 => ⟨S1600000, .i32⟩
  | 65 => ⟨S1600000, .i32⟩
  | 66 => ⟨S1600000x1, .i32⟩
  | 67 => ⟨S1600000x128, .f32⟩
  | 68 => ⟨S_, .f32⟩
  | 69 => ⟨S100000x128, .f32⟩
  | 70 => ⟨S1600000x1, .i32⟩
  | 71 => ⟨S100000x128, .f32⟩
  | 72 => ⟨S_, .f32⟩
  | 73 => ⟨S1600000, .f32⟩
  | 74 => ⟨S_, .f32⟩
  | 75 => ⟨S100000, .f32⟩
  | 76 => ⟨S1600000x1, .i32⟩
  | 77 => ⟨S100000, .f32⟩
  | 78 => ⟨S_, .f32⟩
  | 79 => ⟨S100000, .f32⟩
  | 80 => ⟨S100000, .f32⟩
  | 81 => ⟨S100000x1, .f32⟩
  | 82 => ⟨S100000x128, .f32⟩
  | 83 => ⟨S100000x128, .f32⟩
  | 84 => ⟨S100000x128, .f32⟩
  | 85 => ⟨S1x128, .f32⟩
  | 86 => ⟨S100000x128, .f32⟩
  | 87 => ⟨S100000x128, .f32⟩
  | 88 => ⟨S100000x128, .f32⟩
  | 89 => ⟨S100000x128, .f32⟩
  | 90 => ⟨S100000x128, .f32⟩
  | 91 => ⟨S_, .f32⟩
  | 92 => ⟨S100000, .f32⟩
  | 93 => ⟨S100000x1, .f32⟩
  | 94 => ⟨S100000x1, .f32⟩
  | 95 => ⟨S_, .f32⟩
  | 96 => ⟨S100000x1, .f32⟩
  | 97 => ⟨S100000x1, .f32⟩
  | 98 => ⟨S100000x128, .f32⟩
  | 99 => ⟨S100000x128, .f32⟩
  | 100 => ⟨S_, .f32⟩
  | 101 => ⟨S100000x128, .f32⟩
  | 102 => ⟨S100000x128, .f32⟩
  | 103 => ⟨S_, .i32⟩
  | 104 => ⟨S1600000, .i32⟩
  | 105 => ⟨S1600000, .i1⟩
  | 106 => ⟨S_, .i32⟩
  | 107 => ⟨S1600000, .i32⟩
  | 108 => ⟨S1600000, .i32⟩
  | 109 => ⟨S1600000, .i32⟩
  | 110 => ⟨S1600000x1, .i32⟩
  | 111 => ⟨S1600000x128, .f32⟩
  | 112 => ⟨S_, .f32⟩
  | 113 => ⟨S100000x128, .f32⟩
  | 114 => ⟨S1600000x1, .i32⟩
  | 115 => ⟨S100000x128, .f32⟩
  | 116 => ⟨S_, .f32⟩
  | 117 => ⟨S1600000, .f32⟩
  | 118 => ⟨S_, .f32⟩
  | 119 => ⟨S100000, .f32⟩
  | 120 => ⟨S1600000x1, .i32⟩
  | 121 => ⟨S100000, .f32⟩
  | 122 => ⟨S_, .f32⟩
  | 123 => ⟨S100000, .f32⟩
  | 124 => ⟨S100000, .f32⟩
  | 125 => ⟨S100000x1, .f32⟩
  | 126 => ⟨S100000x128, .f32⟩
  | 127 => ⟨S100000x128, .f32⟩
  | _ => ⟨S100000x128, .f32⟩

abbrev hbmTy0_1 (i : Nat) : BufTy := match i % 128 with
  | 0 => ⟨S100000x64, .f32⟩
  | 1 => ⟨S1x64, .f32⟩
  | 2 => ⟨S100000x64, .f32⟩
  | 3 => ⟨S100000x64, .f32⟩
  | 4 => ⟨S100000x64, .f32⟩
  | 5 => ⟨S100000x64, .f32⟩
  | 6 => ⟨S100000x64, .f32⟩
  | 7 => ⟨S_, .f32⟩
  | 8 => ⟨S100000, .f32⟩
  | 9 => ⟨S100000x1, .f32⟩
  | 10 => ⟨S100000x1, .f32⟩
  | 11 => ⟨S_, .f32⟩
  | 12 => ⟨S100000x1, .f32⟩
  | 13 => ⟨S100000x1, .f32⟩
  | 14 => ⟨S100000x64, .f32⟩
  | 15 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_call0_v0 : Ref sig .tc := ⟨.hbm, 46, rfl⟩
abbrev main_call0_cst : Ref sig .tc := ⟨.hbm, 47, rfl⟩
abbrev main_call0_v1 : Ref sig .tc := ⟨.hbm, 48, rfl⟩
abbrev main_call0_v2 : Ref sig .tc := ⟨.hbm, 49, rfl⟩
abbrev main_v29 : Ref sig .tc := ⟨.hbm, 50, rfl⟩
abbrev main_cst_4 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_call1_cst : Ref sig .tc := ⟨.hbm, 56, rfl⟩
abbrev main_call1_v0 : Ref sig .tc := ⟨.hbm, 57, rfl⟩
abbrev main_v34 : Ref sig .tc := ⟨.hbm, 58, rfl⟩
abbrev main_c_5 : Ref sig .tc := ⟨.hbm, 59, rfl⟩
abbrev main_v35 : Ref sig .tc := ⟨.hbm, 60, rfl⟩
abbrev main_v36 : Ref sig .tc := ⟨.hbm, 61, rfl⟩
abbrev main_c_6 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_7 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_8 : Ref sig .tc := ⟨.hbm, 72, rfl⟩
abbrev main_v45 : Ref sig .tc := ⟨.hbm, 73, rfl⟩
abbrev main_cst_9 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_cst_10 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_call2_v0 : Ref sig .tc := ⟨.hbm, 90, rfl⟩
abbrev main_call2_cst : Ref sig .tc := ⟨.hbm, 91, rfl⟩
abbrev main_call2_v1 : Ref sig .tc := ⟨.hbm, 92, rfl⟩
abbrev main_call2_v2 : Ref sig .tc := ⟨.hbm, 93, rfl⟩
abbrev main_v60 : Ref sig .tc := ⟨.hbm, 94, rfl⟩
abbrev main_cst_11 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_call3_cst : Ref sig .tc := ⟨.hbm, 100, rfl⟩
abbrev main_call3_v0 : Ref sig .tc := ⟨.hbm, 101, rfl⟩
abbrev main_v65 : Ref sig .tc := ⟨.hbm, 102, rfl⟩
abbrev main_c_12 : Ref sig .tc := ⟨.hbm, 103, rfl⟩
abbrev main_v66 : Ref sig .tc := ⟨.hbm, 104, rfl⟩
abbrev main_v67 : Ref sig .tc := ⟨.hbm, 105, rfl⟩
abbrev main_c_13 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_cst_14 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_cst_15 : Ref sig .tc := ⟨.hbm, 116, rfl⟩
abbrev main_v76 : Ref sig .tc := ⟨.hbm, 117, rfl⟩
abbrev main_cst_16 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_cst_17 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_call4_v0 : Ref sig .tc := ⟨.hbm, 134, rfl⟩
abbrev main_call4_cst : Ref sig .tc := ⟨.hbm, 135, rfl⟩
abbrev main_call4_v1 : Ref sig .tc := ⟨.hbm, 136, rfl⟩
abbrev main_call4_v2 : Ref sig .tc := ⟨.hbm, 137, rfl⟩
abbrev main_v91 : Ref sig .tc := ⟨.hbm, 138, rfl⟩
abbrev main_cst_18 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S_S100000x1 : S_.BroadcastsInDim S100000x1 (![] : Fin 0 → Fin S100000x1.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  bcast_S100000x1_S100000x64_0_1 : S100000x1.BroadcastsInDim S100000x64 (![0, 1] : Fin 2 → Fin S100000x64.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.Spec.lean ====
/-
  The dense half of one SAGE convolution, on the extended reals, one node at a time.

  A node with aggregated neighbour features `M` and own features `X` (128 numbers each) gets, in output channel `q`,
  `o q = (∑ₖ M k · Wl k q + ∑ₖ X k · Wr k q) + b q`; the row `o` is then divided by its Euclidean norm, the norm floored
  at the single-precision number nearest `1e-12`; the hidden layers keep the positive part. The network is three such
  layers, each fed the mean of its input over a node's in-neighbours (`mean`, kept abstract here: both programs compute
  it with the same gather and scatter-add) beside the input itself.

  Also here: scaling by the reciprocal of a number at least one is dividing by it, on every extended real.
-/
import Idealize.ShloMosaic.PureOps.Ideal
import Idealize.ShloMosaic.PureOps.Ideal.Laws
import Idealize.ShloMosaic.Lib.ValueIdx

noncomputable section

namespace Cert.Sage

open Idealize.ShloMosaic Idealize.ShloMosaic.ValueIdx

/-- The floor under a row's norm. -/
def eps : EReal := Ideal.ofBits .f32 0x2B8CBCCC#32

/-- A node's output row before normalisation: the two products and the bias. -/
def pre {d : ℕ} (M X : Fin 128 → EReal) (Wl Wr : Fin 128 → Fin d → EReal) (b : Fin d → EReal) (q : Fin d) : EReal :=
  (∑ k : Fin 128, M k * Wl k q + ∑ k : Fin 128, X k * Wr k q) + b q

/-- A row divided by its Euclidean norm, the norm floored at `eps`. -/
def unit {d : ℕ} (o : Fin d → EReal) (q : Fin d) : EReal :=
  Ideal.div (o q) (max (Ideal.sqrt (∑ j : Fin d, o j * o j)) eps)

/-- The positive part for a hidden layer, nothing for the last. -/
def act (relu : Bool) (y : EReal) : EReal :=
  if relu then max y (Ideal.ofBits .f32 0x00000000#32) else y

/-- A node's output row. -/
def row {d : ℕ} (relu : Bool) (M X : Fin 128 → EReal) (Wl Wr : Fin 128 → Fin d → EReal) (b : Fin d → EReal)
    (q : Fin d) : EReal :=
  act relu (unit (pre M X Wl Wr b) q)

/-- The layer on `n` nodes: row `p` of the result is the node function of rows `p` of `M` and `X`. -/
def dense {n d : ℕ} (relu : Bool) (M X : (⟨2, ![n, 128]⟩ : Shape).Idx → EReal)
    (Wl Wr : (⟨2, ![128, d]⟩ : Shape).Idx → EReal) (b : Fin d → EReal) : (⟨2, ![n, d]⟩ : Shape).Idx → EReal :=
  fun i => row relu (fun k => M (ix2 (i 0) k)) (fun k => X (ix2 (i 0) k)) (fun k q => Wl (ix2 k q))
    (fun k q => Wr (ix2 k q)) b (i 1)

theorem dense_apply {n d : ℕ} (relu : Bool) (M X : (⟨2, ![n, 128]⟩ : Shape).Idx → EReal)
    (Wl Wr : (⟨2, ![128, d]⟩ : Shape).Idx → EReal) (b : Fin d → EReal) (p : Fin n) (q : Fin d) :
    dense relu M X Wl Wr b (ix2 p q)
      = row relu (fun k => M (ix2 p k)) (fun k => X (ix2 p k)) (fun k q => Wl (ix2 k q)) (fun k q => Wr (ix2 k q)) b q :=
  rfl

/-- The three layers on 100000 nodes, over an abstract neighbourhood mean. -/
def net (mean : ((⟨2, ![100000, 128]⟩ : Shape).Idx → EReal) → (⟨2, ![100000, 128]⟩ : Shape).Idx → EReal)
    (x : (⟨2, ![100000, 128]⟩ : Shape).Idx → EReal)
    (Wl0 : (⟨2, ![128, 128]⟩ : Shape).Idx → EReal) (b0 : (⟨1, ![128]⟩ : Shape).Idx → EReal)
    (Wr0 : (⟨2, ![128, 128]⟩ : Shape).Idx → EReal)
    (Wl1 : (⟨2, ![128, 128]⟩ : Shape).Idx → EReal) (b1 : (⟨1, ![128]⟩ : Shape).Idx → EReal)
    (Wr1 : (⟨2, ![128, 128]⟩ : Shape).Idx → EReal)
    (Wl2 : (⟨2, ![128, 64]⟩ : Shape).Idx → EReal) (b2 : (⟨1, ![64]⟩ : Shape).Idx → EReal)
    (Wr2 : (⟨2, ![128, 64]⟩ : Shape).Idx → EReal) : (⟨2, ![100000, 64]⟩ : Shape).Idx → EReal :=
  let h1 := dense true (mean x) x Wl0 Wr0 (fun q => b0 (ix1 q))
  let h2 := dense true (mean h1) h1 Wl1 Wr1 (fun q => b1 (ix1 q))
  dense false (mean h2) h2 Wl2 Wr2 (fun q => b2 (ix1 q))

/-- The word `0x3F800000` is the number one. -/
theorem ofBits_one : Ideal.ofBits .f32 0x3F800000#32 = 1 := by
  simp [Ideal.ofBits, Ideal.ieee]
  exact_mod_cast (by norm_num : (8388608 : ℝ) * (2 ^ 23)⁻¹ = 1)

/-- Scaling by the reciprocal of `m ≥ 1` is dividing by `m`, at the infinities too: neither side looks at whether
    the scaled number is finite, since `m` is not zero. -/
theorem mul_recip_eq_div (a m : EReal) (hm : 1 ≤ m) : a * Ideal.div 1 m = Ideal.div a m := by
  have h0 : m ≠ 0 := fun h => absurd (h ▸ hm) (by norm_num)
  unfold Ideal.div
  rw [if_neg h0, if_neg h0, one_mul]

end Cert.Sage

end
-- ==== Proof.LibPlainProduct.lean ====
/-
  A plain matrix product `[m, k] × [k, n]` read at an index, over arbitrary sizes.

  At the extended reals a kernel's matrix product into a zero accumulator and the host's product of the same operands
  are both the textbook contraction: entry `(a, b)` is `∑ c, A (a, c) · B (c, b)`.
-/
import Idealize.ShloMosaic.Lib.StackMember
import Idealize.ShloMosaic.Lib.KernelVsHost

noncomputable section

namespace Cert.PlainProduct

open Idealize.ShloMosaic Idealize.ShloMosaic.ValueIdx Idealize.ShloMosaic.StackMember

variable {m k n : Nat} {φ₁ φ₂ : FTy}

/-- A kernel's plain product into the zero splat, at `(a, b)`: the sum over the contracted coordinate. -/
theorem matmul_plain_apply (d : DotDims ⟨2, ![m, k]⟩ ⟨2, ![k, n]⟩ ⟨2, ![m, n]⟩) (hd : d = DotDims.plain m k n)
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  subst hd
  rw [matmul_zero_eq_dotGeneral]
  exact dotGeneral_plain_apply prec A B a b

/-- The host's plain product at `(a, b)`. -/
theorem dotGeneral_plain_apply' (d : DotDims ⟨2, ![m, k]⟩ ⟨2, ![k, n]⟩ ⟨2, ![m, n]⟩) (hd : d = DotDims.plain m k n)
    (prec : Option ContractPrecision) (A : FVec Ideal ⟨2, ![m, k]⟩ φ₁) (B : FVec Ideal ⟨2, ![k, n]⟩ φ₂)
    (a : Fin m) (b : Fin n) :
    Host.dotGeneral d prec A B (ix2 a b) = ∑ c : Fin k, A (ix2 a c) * B (ix2 c b) := by
  subst hd
  exact dotGeneral_plain_apply prec A B a b

end Cert.PlainProduct

end
-- ==== Proof.LibRepeat.lean ====
/-
  A single row repeated down the rows of a matrix, and a single column repeated across its columns, read at an index.

  Broadcasting a `[1, n]` array to `[m, n]` gives, at `(p, q)`, the entry `(0, q)` of the operand; broadcasting an
  `[m, 1]` array to `[m, n]` gives the entry `(p, 0)`.
-/
import Idealize.ShloMosaic.Lib.Pipeline.Value
import Idealize.ShloMosaic.Lib.ValueIdx

namespace Cert.Lib.Repeat

open Idealize.ShloMosaic Idealize.ShloMosaic.ValueIdx

variable {α : Type} {m n : Nat}

/-- One row repeated down `m` rows: entry `(p, q)` is the row's entry `q`. -/
theorem rowRepeat_apply (x : (⟨2, ![1, n]⟩ : Shape).Idx → α) (hb : (⟨2, ![1, n]⟩ : Shape).Broadcasts ⟨2, ![m, n]⟩)
    (p : Fin m) (q : Fin n) : broadcastTo ⟨2, ![m, n]⟩ x hb (ix2 p q) = x (ix2 (0 : Fin 1) q) :=
  broadcastTo_apply x hb (ix2 p q) (ix2 (0 : Fin 1) q) (by
    intro a
    match a with
    | ⟨0, _⟩ => rfl
    | ⟨1, _⟩ =>
      show q.val = if n = 1 then 0 else q.val
      split
      · have := q.isLt; omega
      · rfl)

/-- One column repeated across `n` columns: entry `(p, q)` is the column's entry `p`. -/
theorem colRepeat_apply (x : (⟨2, ![m, 1]⟩ : Shape).Idx → α) (hb : (⟨2, ![m, 1]⟩ : Shape).Broadcasts ⟨2, ![m, n]⟩)
    (p : Fin m) (q : Fin n) : broadcastTo ⟨2, ![m, n]⟩ x hb (ix2 p q) = x (ix2 p (0 : Fin 1)) :=
  broadcastTo_apply x hb (ix2 p q) (ix2 p (0 : Fin 1)) (by
    intro a
    match a with
    | ⟨0, _⟩ =>
      show p.val = if m = 1 then 0 else p.val
      split
      · have := p.isLt; omega
      · rfl
    | ⟨1, _⟩ => rfl)

end Cert.Lib.Repeat
-- ==== Proof.LibColumn.lean ====
/- A column and a vector are the same numbers: an [a, 1] array cast to [a], and an [a] array cast to [a, 1], read at an index. -/
import Idealize.ShloMosaic.Lib.ValueLayout

namespace Cert.Lib.Column

open Idealize.ShloMosaic Idealize.ShloMosaic.ValueIdx

variable {α : Type}

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

end Cert.Lib.Column
-- ==== Proof.BlockValue.lean ====
/-
  What the dense kernel's body computes on one block of nodes, entry by entry.

  The body multiplies the block of neighbourhood means and the block of node features by their weight matrices (each
  product accumulated from zero, so it is the plain sum over the 128 contracted coordinates; the narrowing of the
  operands to a shorter float format before the product changes nothing on the extended reals), adds the two products
  and then the bias row repeated down the block, and divides every row by its Euclidean norm floored at `eps`: the sum
  of squares along a row, a square root, a maximum with the floor, repeated across the row. Entry `(p, q)` of the result
  is therefore the node function `Sage.row` of rows `p` of the two blocks, whatever the number of rows `n` and of output
  channels `d`.
-/
import proofs.«127516_j40020505264508_1_alg».proof.Proof.Spec
import proofs.«127516_j40020505264508_1_alg».proof.Proof.LibPlainProduct
import proofs.«127516_j40020505264508_1_alg».proof.Proof.LibRepeat
import proofs.«127516_j40020505264508_1_alg».proof.Proof.LibColumn
import Idealize.ShloMosaic.Lib.Pipeline.Value
import Idealize.ShloMosaic.Lib.ValueIdx
import Idealize.ShloMosaic.PureOps.Ideal.Laws

noncomputable section

namespace Cert.Sage.Block

open Idealize.ShloMosaic Idealize.ShloMosaic.ValueIdx

variable {n d : ℕ}

section
variable (D : DotDims ⟨2, ![n, 128]⟩ ⟨2, ![128, d]⟩ ⟨2, ![n, d]⟩) (hD : D = DotDims.plain n 128 d)
  (M X : FVec Ideal ⟨2, ![n, 128]⟩ .f32) (Wl Wr : FVec Ideal ⟨2, ![128, d]⟩ .f32) (b : FVec Ideal ⟨2, ![1, d]⟩ .f32)
  (hlt : FTy.bits .bf16 < FTy.bits .f32) (hb : (⟨2, ![1, d]⟩ : Shape).Broadcasts ⟨2, ![n, d]⟩)

/-- The two products into zero, added, plus the bias row repeated down the block. -/
abbrev lin : FVec Ideal ⟨2, ![n, d]⟩ .f32 :=
  addf (addf (matmul D none (truncf .bf16 M hlt) (truncf .bf16 Wl hlt) (constant ⟨2, ![n, d]⟩ .f32 0x00000000#32))
      (matmul D none (truncf .bf16 X hlt) (truncf .bf16 Wr hlt) (constant ⟨2, ![n, d]⟩ .f32 0x00000000#32)))
    (broadcastTo ⟨2, ![n, d]⟩ b hb)

include hD in
/-- Entry `(p, q)` of the linear part is `Sage.pre` of rows `p`. -/
theorem lin_apply (p : Fin n) (q : Fin d) :
    lin D M X Wl Wr b hlt hb (ix2 p q)
      = Sage.pre (fun k => M (ix2 p k)) (fun k => X (ix2 p k)) (fun k q => Wl (ix2 k q)) (fun k q => Wr (ix2 k q))
          (fun q => b (ix2 (0 : Fin 1) q)) q := by
  show (matmul D none (truncf .bf16 M hlt) (truncf .bf16 Wl hlt) (constant ⟨2, ![n, d]⟩ .f32 0x00000000#32) (ix2 p q)
      + matmul D none (truncf .bf16 X hlt) (truncf .bf16 Wr hlt) (constant ⟨2, ![n, d]⟩ .f32 0x00000000#32) (ix2 p q))
      + broadcastTo ⟨2, ![n, d]⟩ b hb (ix2 p q) = _
  rw [PlainProduct.matmul_plain_apply D hD, PlainProduct.matmul_plain_apply D hD, Lib.Repeat.rowRepeat_apply]
  rfl

end

section
variable (o : FVec Ideal ⟨2, ![n, d]⟩ .f32)
  (hr : (⟨2, ![n, d]⟩ : Shape).Reduces [1] ⟨1, ![n]⟩) (hφ : FKind.Formats .f32)
  (hacc : (0x00000000#32 : BitVec 32) = FKind.add.neutral .f32 hφ)
  (hsc : (⟨1, ![n]⟩ : Shape).ShapeCasts ⟨2, ![n, 1]⟩) (hbc : (⟨2, ![n, 1]⟩ : Shape).Broadcasts ⟨2, ![n, d]⟩)

/-- Every row divided by its floored Euclidean norm. -/
abbrev normed : FVec Ideal ⟨2, ![n, d]⟩ .f32 :=
  divf o (broadcastTo ⟨2, ![n, d]⟩ (maximumf (sqrt (shapeCast ⟨2, ![n, 1]⟩
    (multiReduction .add [1] ⟨1, ![n]⟩ (mulf o o) 0x00000000#32 hr hφ hacc) hsc))
    (broadcast ⟨2, ![n, 1]⟩ (Scalar.ofBits .f32 0x2B8CBCCC#32))) hbc)

/-- The sum of a row's squares. -/
theorem sumsq_apply (p : Fin n) :
    multiReduction .add [1] ⟨1, ![n]⟩ (mulf o o) 0x00000000#32 hr hφ hacc (ix1 p) = ∑ j : Fin d, o (ix2 p j) * o (ix2 p j) := by
  refine (Ideal.multiReduction_add_single (mulf o o) 0x00000000#32 hr hφ hacc (ix1 p)).trans ?_
  refine Finset.sum_congr rfl fun j _ => ?_
  have e : hr.lift (ix1 p) j = ix2 p j := funext fun a => Fin.ext (by
    match a with
    | ⟨0, _⟩ => rfl
    | ⟨1, _⟩ => rfl)
  rw [e]
  rfl

/-- Entry `(p, q)` of the normalised block is `Sage.unit` of row `p`. -/
theorem normed_apply (p : Fin n) (q : Fin d) :
    normed o hr hφ hacc hsc hbc (ix2 p q) = Sage.unit (fun j => o (ix2 p j)) q := by
  show Ideal.div (o (ix2 p q)) (broadcastTo ⟨2, ![n, d]⟩ (maximumf (sqrt (shapeCast ⟨2, ![n, 1]⟩
    (multiReduction .add [1] ⟨1, ![n]⟩ (mulf o o) 0x00000000#32 hr hφ hacc) hsc))
    (broadcast ⟨2, ![n, 1]⟩ (Scalar.ofBits .f32 0x2B8CBCCC#32))) hbc (ix2 p q)) = _
  rw [Lib.Repeat.colRepeat_apply]
  show Ideal.div (o (ix2 p q)) (max (Ideal.sqrt (shapeCast ⟨2, ![n, 1]⟩
    (multiReduction .add [1] ⟨1, ![n]⟩ (mulf o o) 0x00000000#32 hr hφ hacc) hsc (ix2 p (0 : Fin 1)))) Sage.eps) = _
  rw [Lib.Column.shapeCast_a_a1_apply, sumsq_apply]
  rfl

end

section
variable (D : DotDims ⟨2, ![n, 128]⟩ ⟨2, ![128, d]⟩ ⟨2, ![n, d]⟩) (hD : D = DotDims.plain n 128 d)
  (M X : FVec Ideal ⟨2, ![n, 128]⟩ .f32) (Wl Wr : FVec Ideal ⟨2, ![128, d]⟩ .f32) (b : FVec Ideal ⟨2, ![1, d]⟩ .f32)
  (hlt : FTy.bits .bf16 < FTy.bits .f32) (hb : (⟨2, ![1, d]⟩ : Shape).Broadcasts ⟨2, ![n, d]⟩)
  (hr : (⟨2, ![n, d]⟩ : Shape).Reduces [1] ⟨1, ![n]⟩) (hφ : FKind.Formats .f32)
  (hacc : (0x00000000#32 : BitVec 32) = FKind.add.neutral .f32 hφ)
  (hsc : (⟨1, ![n]⟩ : Shape).ShapeCasts ⟨2, ![n, 1]⟩) (hbc : (⟨2, ![n, 1]⟩ : Shape).Broadcasts ⟨2, ![n, d]⟩)

include hD in
/-- The last layer's block: the normalised linear part is the layer without the positive part. -/
theorem block_plain :
    normed (lin D M X Wl Wr b hlt hb) hr hφ hacc hsc hbc
      = Sage.dense false M X Wl Wr (fun q => b (ix2 (0 : Fin 1) q)) := by
  funext j
  obtain ⟨p, q, rfl⟩ : ∃ (p : Fin n) (q : Fin d), j = ix2 p q := ⟨j 0, j 1, eq_ix2 j⟩
  rw [normed_apply, Sage.dense_apply]
  simp only [lin_apply D hD]
  rfl

include hD in
/-- A hidden layer's block: the positive part of the normalised linear part. -/
theorem block_relu :
    maximumf (normed (lin D M X Wl Wr b hlt hb) hr hφ hacc hsc hbc)
        (broadcast ⟨2, ![n, d]⟩ (Scalar.ofBits .f32 0x00000000#32))
      = Sage.dense true M X Wl Wr (fun q => b (ix2 (0 : Fin 1) q)) := by
  funext j
  obtain ⟨p, q, rfl⟩ : ∃ (p : Fin n) (q : Fin d), j = ix2 p q := ⟨j 0, j 1, eq_ix2 j⟩
  show max (normed (lin D M X Wl Wr b hlt hb) hr hφ hacc hsc hbc (ix2 p q)) (Ideal.ofBits .f32 0x00000000#32) = _
  rw [normed_apply, Sage.dense_apply]
  simp only [lin_apply D hD]
  rfl

end

end Cert.Sage.Block

end
-- ==== Proof.Region0.lean ====
/-
  The first dense kernel's output array, as one function of the arrays its region finds.

  The grid has 20 points; point `t` works on rows `5000·t … 5000·t + 4999` of the mean and feature arrays and on the
  whole weight and bias arrays, and writes the same rows of the output. Its body computes the layer on that block of
  rows (`Sage.Block`), and the layer acts row by row, so what point `t` writes back is block `t` of the layer applied to
  the whole arrays; the 20 blocks tile the output's 100000 rows, so the output array ends as the layer of the arrays.
-/
import proofs.«127516_j40020505264508_1_alg».proof.Proof.Gen.KernelIdeal.Frame
import proofs.«127516_j40020505264508_1_alg».proof.Proof.BlockValue
import Idealize.ShloMosaic.Lib.Pipeline.Value

set_option maxRecDepth 16384

noncomputable section

namespace Cert.KernelIdeal.Region0

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's stored value is the hidden layer on the block. -/
theorem pay_eq (v0 v3 : Vec Ideal S5000x128 .f32) (v5 v7 : Vec Ideal S128x128 .f32) (v12 : Vec Ideal S1x128 .f32) :
    k0_pay1 v0 v3 v5 v7 v12 = Sage.dense true v0 v3 v5 v7 (fun q => v12 (ix2 (0 : Fin 1) q)) := by
  unfold k0_pay1
  simp only [shapeCast_self]
  exact Sage.Block.block_relu dot_S5000x128_S128x128_S5000x128_1_0_0_1_n_n rfl v0 v3 v5 v7 v12 _ _ _ _ _ _ _

/-- The layer of the arrays the region finds: means, features, the two weight matrices, the bias row. -/
def G (c : Dev nD) : S100000x128.Idx → EReal :=
  Sage.dense true (V c main_v24) (V c main_arg0) (V c main_arg2) (V c main_arg4)
    (fun q => V c main_v25 (ix2 (0 : Fin 1) q))

/-- The block index maps over the grid: the row-blocked windows sit at block `(t, 0)`, the whole-array ones at `(0, 0)`. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem t_lt (t : Fin cfg0.N) : t.val < 20 := lt_of_lt_of_eq t.isLt N_0

/-- Row `r` of point `t`'s block of means is row `5000·t + r` of the array. -/
theorem read0 (c : Dev nD) (t : Fin cfg0.N) (r : Fin 5000) (k : Fin 128) (P : Fin 100000)
    (hP : P.val = t.val * 5000 + r.val) : iblk0 V c 0 t (ix2 r k) = V c main_v24 (ix2 P k) := by
  obtain ⟨e0, e1, -⟩ := idx_facts t
  show V c main_v24 (((cfg0.win 0).blk t).view.emb (ix2 r k)) = _
  refine congrArg (V c main_v24) (funext fun a => Fin.ext ?_)
  match a with
  | ⟨0, _⟩ => show win0_0.index t (0 : Fin 2) * 5000 + 1 * r.val = P.val; omega
  | ⟨1, _⟩ => show win0_0.index t (1 : Fin 2) * 128 + 1 * k.val = k.val; omega

/-- The same for the block of features. -/
theorem read1 (c : Dev nD) (t : Fin cfg0.N) (r : Fin 5000) (k : Fin 128) (P : Fin 100000)
    (hP : P.val = t.val * 5000 + r.val) : iblk0 V c 1 t (ix2 r k) = V c main_arg0 (ix2 P k) := by
  obtain ⟨-, -, e0, e1, -⟩ := idx_facts t
  show V c main_arg0 (((cfg0.win 1).blk t).view.emb (ix2 r k)) = _
  refine congrArg (V c main_arg0) (funext fun a => Fin.ext ?_)
  match a with
  | ⟨0, _⟩ => show win0_1.index t (0 : Fin 2) * 5000 + 1 * r.val = P.val; omega
  | ⟨1, _⟩ => show win0_1.index t (1 : Fin 2) * 128 + 1 * k.val = k.val; omega

/-- Every point's block of the neighbour weights is the whole matrix. -/
theorem read2 (c : Dev nD) (t : Fin cfg0.N) (k : Fin 128) (q : Fin 128) :
    iblk0 V c 2 t (ix2 k q) = V c main_arg2 (ix2 k q) := by
  obtain ⟨-, -, -, -, e0, e1, -⟩ := idx_facts t
  show V c main_arg2 (((cfg0.win 2).blk t).view.emb (ix2 k q)) = _
  refine congrArg (V c main_arg2) (funext fun a => Fin.ext ?_)
  match a with
  | ⟨0, _⟩ => show win0_2.index t (0 : Fin 2) * 128 + 1 * k.val = k.val; omega
  | ⟨1, _⟩ => show win0_2.index t (1 : Fin 2) * 128 + 1 * q.val = q.val; omega

/-- Every point's block of the bias is the whole row. -/
theorem read3 (c : Dev nD) (t : Fin cfg0.N) (q : Fin 128) :
    iblk0 V c 3 t (ix2 (0 : Fin 1) q) = V c main_v25 (ix2 (0 : Fin 1) q) := by
  obtain ⟨-, -, -, -, -, -, e0, e1, -⟩ := idx_facts t
  show V c main_v25 (((cfg0.win 3).blk t).view.emb (ix2 (0 : Fin 1) q)) = _
  refine congrArg (V c main_v25) (funext fun a => Fin.ext ?_)
  match a with
  | ⟨0, _⟩ => show win0_3.index t (0 : Fin 2) * 1 + 1 * 0 = 0; omega
  | ⟨1, _⟩ => show win0_3.index t (1 : Fin 2) * 128 + 1 * q.val = q.val; omega

/-- Every point's block of the root weights is the whole matrix. -/
theorem read4 (c : Dev nD) (t : Fin cfg0.N) (k : Fin 128) (q : Fin 128) :
    iblk0 V c 4 t (ix2 k q) = V c main_arg4 (ix2 k q) := by
  obtain ⟨-, -, -, -, -, -, -, -, e0, e1, -⟩ := idx_facts t
  show V c main_arg4 (((cfg0.win 4).blk t).view.emb (ix2 k q)) = _
  refine congrArg (V c main_arg4) (funext fun a => Fin.ext ?_)
  match a with
  | ⟨0, _⟩ => show win0_4.index t (0 : Fin 2) * 128 + 1 * k.val = k.val; omega
  | ⟨1, _⟩ => show win0_4.index t (1 : Fin 2) * 128 + 1 * q.val = q.val; omega

/-- What point `t` writes back is block `t` of the layer of the whole arrays. -/
theorem flushed_eq (c : Dev nD) (t : Fin cfg0.N) :
    (dat0 V c).flushed 5 t = ((cfg0.win 5).blk t).view.read (Elt Ideal) (G V c) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz,
    View.ld_unit_zero (S := S1x128) hz]
  rw [pay_eq]
  obtain ⟨-, -, -, -, -, -, -, -, -, -, e0, e1⟩ := idx_facts t
  have ht := t_lt t
  funext j
  obtain ⟨r, q, rfl⟩ : ∃ (r : Fin 5000) (q : Fin 128), j = ix2 r q := ⟨j 0, j 1, eq_ix2 j⟩
  have hr := r.isLt
  have hP : t.val * 5000 + r.val < 100000 := by omega
  show Sage.dense true (iblk0 V c 0 t) (iblk0 V c 1 t) (iblk0 V c 2 t) (iblk0 V c 4 t)
      (fun q => iblk0 V c 3 t (ix2 (0 : Fin 1) q)) (ix2 r q) = G V c (((cfg0.win 5).blk t).view.emb (ix2 r q))
  have he : ((cfg0.win 5).blk t).view.emb (ix2 r q) = ix2 (⟨t.val * 5000 + r.val, hP⟩ : Fin 100000) q :=
    funext fun a => Fin.ext (by
      match a with
      | ⟨0, _⟩ => show win0_5.index t (0 : Fin 2) * 5000 + 1 * r.val = t.val * 5000 + r.val; omega
      | ⟨1, _⟩ => show win0_5.index t (1 : Fin 2) * 128 + 1 * q.val = q.val; omega)
  rw [he]
  unfold G
  rw [Sage.dense_apply, Sage.dense_apply]
  have h0 : (fun k => iblk0 V c 0 t (ix2 r k)) = fun k => V c main_v24 (ix2 (⟨t.val * 5000 + r.val, hP⟩ : Fin 100000) k) :=
    funext fun k => read0 V c t r k _ rfl
  have h1 : (fun k => iblk0 V c 1 t (ix2 r k)) = fun k => V c main_arg0 (ix2 (⟨t.val * 5000 + r.val, hP⟩ : Fin 100000) k) :=
    funext fun k => read1 V c t r k _ rfl
  have h2 : (fun (k : Fin 128) (q : Fin 128) => iblk0 V c 2 t (ix2 k q)) = fun k q => V c main_arg2 (ix2 k q) :=
    funext fun k => funext fun q => read2 V c t k q
  have h3 : (fun (q : Fin 128) => iblk0 V c 3 t (ix2 (0 : Fin 1) q)) = fun q => V c main_v25 (ix2 (0 : Fin 1) q) :=
    funext fun q => read3 V c t q
  have h4 : (fun (k : Fin 128) (q : Fin 128) => iblk0 V c 4 t (ix2 k q)) = fun k q => V c main_arg4 (ix2 k q) :=
    funext fun k => funext fun q => read4 V c t k q
  rw [h0, h1, h2, h3, h4]

/-- An index of the output array is in point `t`'s block iff each coordinate is in the block's range. -/
theorem mem_blk (t : Fin cfg0.N) (i : S100000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v26).slice (win0_5.rect t)).set ↔ _
  rw [View.set_slice_whole, Rect.mem_set_unit]
  exact Iff.rfl

/-- Row `p` of the output is written by point `p / 5000`. -/
theorem cover (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : (i 0).val / 5000 < cfg0.N := by rw [show cfg0.N = 20 from N_0]; omega
  obtain ⟨-, -, -, -, -, -, -, -, -, -, e0, e1⟩ := idx_facts ⟨(i 0).val / 5000, hN⟩
  refine ⟨⟨(i 0).val / 5000, hN⟩, flush0_5 _, ?_⟩
  rw [mem_blk]
  intro a
  match a with
  | ⟨0, _⟩ =>
    show win0_5.index ⟨(i 0).val / 5000, hN⟩ (0 : Fin 2) * 5000 ≤ (i 0).val
      ∧ (i 0).val < win0_5.index ⟨(i 0).val / 5000, hN⟩ (0 : Fin 2) * 5000 + 5000
    rw [e0]; show (i 0).val / 5000 * 5000 ≤ (i 0).val ∧ (i 0).val < (i 0).val / 5000 * 5000 + 5000; omega
  | ⟨1, _⟩ =>
    show win0_5.index ⟨(i 0).val / 5000, hN⟩ (1 : Fin 2) * 128 ≤ (i 1).val
      ∧ (i 1).val < win0_5.index ⟨(i 0).val / 5000, hN⟩ (1 : Fin 2) * 128 + 128
    rw [e1]; omega

/-- The output array after the region: the hidden layer of the arrays the region finds. -/
theorem value (c : Dev nD) : (dat0 V c).arrAt 5 cfg0.N = G V c :=
  (dat0 V c).arrAt_eq_of_cover 5 (G V c) (fun t _ => flushed_eq V c t) (fun i => cover i)

end Cert.KernelIdeal.Region0

end
-- ==== Proof.Region1.lean ====
/-
  The second dense kernel's output array, as one function of the arrays its region finds.

  The grid has 20 points; point `t` works on rows `5000·t … 5000·t + 4999` of the mean and feature arrays and on the
  whole weight and bias arrays, and writes the same rows of the output. Its body computes the layer on that block of
  rows (`Sage.Block`), and the layer acts row by row, so what point `t` writes back is block `t` of the layer applied to
  the whole arrays; the 20 blocks tile the output's 100000 rows, so the output array ends as the layer of the arrays.
-/
import proofs.«127516_j40020505264508_1_alg».proof.Proof.Gen.KernelIdeal.Frame
import proofs.«127516_j40020505264508_1_alg».proof.Proof.BlockValue
import Idealize.ShloMosaic.Lib.Pipeline.Value

set_option maxRecDepth 16384

noncomputable section

namespace Cert.KernelIdeal.Region1

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's stored value is the hidden layer on the block. -/
theorem pay_eq (v0 v3 : Vec Ideal S5000x128 .f32) (v5 v7 : Vec Ideal S128x128 .f32) (v12 : Vec Ideal S1x128 .f32) :
    k1_pay1 v0 v3 v5 v7 v12 = Sage.dense true v0 v3 v5 v7 (fun q => v12 (ix2 (0 : Fin 1) q)) := by
  unfold k1_pay1
  simp only [shapeCast_self]
  exact Sage.Block.block_relu dot_S5000x128_S128x128_S5000x128_1_0_0_1_n_n rfl v0 v3 v5 v7 v12 _ _ _ _ _ _ _

/-- The layer of the arrays the region finds: means, features, the two weight matrices, the bias row. -/
def G (c : Dev nD) : S100000x128.Idx → EReal :=
  Sage.dense true (V c main_v38) (V c main_v26) (V c main_arg5) (V c main_arg7)
    (fun q => V c main_v39 (ix2 (0 : Fin 1) q))

/-- The block index maps over the grid: the row-blocked windows sit at block `(t, 0)`, the whole-array ones at `(0, 0)`. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem t_lt (t : Fin cfg1.N) : t.val < 20 := lt_of_lt_of_eq t.isLt N_1

/-- Row `r` of point `t`'s block of means is row `5000·t + r` of the array. -/
theorem read0 (c : Dev nD) (t : Fin cfg1.N) (r : Fin 5000) (k : Fin 128) (P : Fin 100000)
    (hP : P.val = t.val * 5000 + r.val) : iblk1 V c 0 t (ix2 r k) = V c main_v38 (ix2 P k) := by
  obtain ⟨e0, e1, -⟩ := idx_facts t
  show V c main_v38 (((cfg1.win 0).blk t).view.emb (ix2 r k)) = _
  refine congrArg (V c main_v38) (funext fun a => Fin.ext ?_)
  match a with
  | ⟨0, _⟩ => show win1_0.index t (0 : Fin 2) * 5000 + 1 * r.val = P.val; omega
  | ⟨1, _⟩ => show win1_0.index t (1 : Fin 2) * 128 + 1 * k.val = k.val; omega

/-- The same for the block of features. -/
theorem read1 (c : Dev nD) (t : Fin cfg1.N) (r : Fin 5000) (k : Fin 128) (P : Fin 100000)
    (hP : P.val = t.val * 5000 + r.val) : iblk1 V c 1 t (ix2 r k) = V c main_v26 (ix2 P k) := by
  obtain ⟨-, -, e0, e1, -⟩ := idx_facts t
  show V c main_v26 (((cfg1.win 1).blk t).view.emb (ix2 r k)) = _
  refine congrArg (V c main_v26) (funext fun a => Fin.ext ?_)
  match a with
  | ⟨0, _⟩ => show win1_1.index t (0 : Fin 2) * 5000 + 1 * r.val = P.val; omega
  | ⟨1, _⟩ => show win1_1.index t (1 : Fin 2) * 128 + 1 * k.val = k.val; omega

/-- Every point's block of the neighbour weights is the whole matrix. -/
theorem read2 (c : Dev nD) (t : Fin cfg1.N) (k : Fin 128) (q : Fin 128) :
    iblk1 V c 2 t (ix2 k q) = V c main_arg5 (ix2 k q) := by
  obtain ⟨-, -, -, -, e0, e1, -⟩ := idx_facts t
  show V c main_arg5 (((cfg1.win 2).blk t).view.emb (ix2 k q)) = _
  refine congrArg (V c main_arg5) (funext fun a => Fin.ext ?_)
  match a with
  | ⟨0, _⟩ => show win1_2.index t (0 : Fin 2) * 128 + 1 * k.val = k.val; omega
  | ⟨1, _⟩ => show win1_2.index t (1 : Fin 2) * 128 + 1 * q.val = q.val; omega

/-- Every point's block of the bias is the whole row. -/
theorem read3 (c : Dev nD) (t : Fin cfg1.N) (q : Fin 128) :
    iblk1 V c 3 t (ix2 (0 : Fin 1) q) = V c main_v39 (ix2 (0 : Fin 1) q) := by
  obtain ⟨-, -, -, -, -, -, e0, e1, -⟩ := idx_facts t
  show V c main_v39 (((cfg1.win 3).blk t).view.emb (ix2 (0 : Fin 1) q)) = _
  refine congrArg (V c main_v39) (funext fun a => Fin.ext ?_)
  match a with
  | ⟨0, _⟩ => show win1_3.index t (0 : Fin 2) * 1 + 1 * 0 = 0; omega
  | ⟨1, _⟩ => show win1_3.index t (1 : Fin 2) * 128 + 1 * q.val = q.val; omega

/-- Every point's block of the root weights is the whole matrix. -/
theorem read4 (c : Dev nD) (t : Fin cfg1.N) (k : Fin 128) (q : Fin 128) :
    iblk1 V c 4 t (ix2 k q) = V c main_arg7 (ix2 k q) := by
  obtain ⟨-, -, -, -, -, -, -, -, e0, e1, -⟩ := idx_facts t
  show V c main_arg7 (((cfg1.win 4).blk t).view.emb (ix2 k q)) = _
  refine congrArg (V c main_arg7) (funext fun a => Fin.ext ?_)
  match a with
  | ⟨0, _⟩ => show win1_4.index t (0 : Fin 2) * 128 + 1 * k.val = k.val; omega
  | ⟨1, _⟩ => show win1_4.index t (1 : Fin 2) * 128 + 1 * q.val = q.val; omega

/-- What point `t` writes back is block `t` of the layer of the whole arrays. -/
theorem flushed_eq (c : Dev nD) (t : Fin cfg1.N) :
    (dat1 V c).flushed 5 t = ((cfg1.win 5).blk t).view.read (Elt Ideal) (G V c) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz,
    View.ld_unit_zero (S := S1x128) hz]
  rw [pay_eq]
  obtain ⟨-, -, -, -, -, -, -, -, -, -, e0, e1⟩ := idx_facts t
  have ht := t_lt t
  funext j
  obtain ⟨r, q, rfl⟩ : ∃ (r : Fin 5000) (q : Fin 128), j = ix2 r q := ⟨j 0, j 1, eq_ix2 j⟩
  have hr := r.isLt
  have hP : t.val * 5000 + r.val < 100000 := by omega
  show Sage.dense true (iblk1 V c 0 t) (iblk1 V c 1 t) (iblk1 V c 2 t) (iblk1 V c 4 t)
      (fun q => iblk1 V c 3 t (ix2 (0 : Fin 1) q)) (ix2 r q) = G V c (((cfg1.win 5).blk t).view.emb (ix2 r q))
  have he : ((cfg1.win 5).blk t).view.emb (ix2 r q) = ix2 (⟨t.val * 5000 + r.val, hP⟩ : Fin 100000) q :=
    funext fun a => Fin.ext (by
      match a with
      | ⟨0, _⟩ => show win1_5.index t (0 : Fin 2) * 5000 + 1 * r.val = t.val * 5000 + r.val; omega
      | ⟨1, _⟩ => show win1_5.index t (1 : Fin 2) * 128 + 1 * q.val = q.val; omega)
  rw [he]
  unfold G
  rw [Sage.dense_apply, Sage.dense_apply]
  have h0 : (fun k => iblk1 V c 0 t (ix2 r k)) = fun k => V c main_v38 (ix2 (⟨t.val * 5000 + r.val, hP⟩ : Fin 100000) k) :=
    funext fun k => read0 V c t r k _ rfl
  have h1 : (fun k => iblk1 V c 1 t (ix2 r k)) = fun k => V c main_v26 (ix2 (⟨t.val * 5000 + r.val, hP⟩ : Fin 100000) k) :=
    funext fun k => read1 V c t r k _ rfl
  have h2 : (fun (k : Fin 128) (q : Fin 128) => iblk1 V c 2 t (ix2 k q)) = fun k q => V c main_arg5 (ix2 k q) :=
    funext fun k => funext fun q => read2 V c t k q
  have h3 : (fun (q : Fin 128) => iblk1 V c 3 t (ix2 (0 : Fin 1) q)) = fun q => V c main_v39 (ix2 (0 : Fin 1) q) :=
    funext fun q => read3 V c t q
  have h4 : (fun (k : Fin 128) (q : Fin 128) => iblk1 V c 4 t (ix2 k q)) = fun k q => V c main_arg7 (ix2 k q) :=
    funext fun k => funext fun q => read4 V c t k q
  rw [h0, h1, h2, h3, h4]

/-- An index of the output array is in point `t`'s block iff each coordinate is in the block's range. -/
theorem mem_blk (t : Fin cfg1.N) (i : S100000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v40).slice (win1_5.rect t)).set ↔ _
  rw [View.set_slice_whole, Rect.mem_set_unit]
  exact Iff.rfl

/-- Row `p` of the output is written by point `p / 5000`. -/
theorem cover (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have hN : (i 0).val / 5000 < cfg1.N := by rw [show cfg1.N = 20 from N_1]; omega
  obtain ⟨-, -, -, -, -, -, -, -, -, -, e0, e1⟩ := idx_facts ⟨(i 0).val / 5000, hN⟩
  refine ⟨⟨(i 0).val / 5000, hN⟩, flush1_5 _, ?_⟩
  rw [mem_blk]
  intro a
  match a with
  | ⟨0, _⟩ =>
    show win1_5.index ⟨(i 0).val / 5000, hN⟩ (0 : Fin 2) * 5000 ≤ (i 0).val
      ∧ (i 0).val < win1_5.index ⟨(i 0).val / 5000, hN⟩ (0 : Fin 2) * 5000 + 5000
    rw [e0]; show (i 0).val / 5000 * 5000 ≤ (i 0).val ∧ (i 0).val < (i 0).val / 5000 * 5000 + 5000; omega
  | ⟨1, _⟩ =>
    show win1_5.index ⟨(i 0).val / 5000, hN⟩ (1 : Fin 2) * 128 ≤ (i 1).val
      ∧ (i 1).val < win1_5.index ⟨(i 0).val / 5000, hN⟩ (1 : Fin 2) * 128 + 128
    rw [e1]; omega

/-- The output array after the region: the hidden layer of the arrays the region finds. -/
theorem value (c : Dev nD) : (dat1 V c).arrAt 5 cfg1.N = G V c :=
  (dat1 V c).arrAt_eq_of_cover 5 (G V c) (fun t _ => flushed_eq V c t) (fun i => cover i)

end Cert.KernelIdeal.Region1

end
-- ==== Proof.Region2.lean ====
/-
  The third dense kernel's output array, as one function of the arrays its region finds.

  The grid has 20 points; point `t` works on rows `5000·t … 5000·t + 4999` of the mean and feature arrays and on the
  whole weight and bias arrays, and writes the same rows of the output. Its body computes the layer on that block of
  rows (`Sage.Block`), and the layer acts row by row, so what point `t` writes back is block `t` of the layer applied to
  the whole arrays; the 20 blocks tile the output's 100000 rows, so the output array ends as the layer of the arrays.
-/
import proofs.«127516_j40020505264508_1_alg».proof.Proof.Gen.KernelIdeal.Frame
import proofs.«127516_j40020505264508_1_alg».proof.Proof.BlockValue
import Idealize.ShloMosaic.Lib.Pipeline.Value

set_option maxRecDepth 16384

noncomputable section

namespace Cert.KernelIdeal.Region2

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's stored value is the last layer on the block. -/
theorem pay_eq (v0 v3 : Vec Ideal S5000x128 .f32) (v5 v7 : Vec Ideal S128x64 .f32) (v12 : Vec Ideal S1x64 .f32) :
    k2_pay1 v0 v3 v5 v7 v12 = Sage.dense false v0 v3 v5 v7 (fun q => v12 (ix2 (0 : Fin 1) q)) := by
  unfold k2_pay1
  simp only [shapeCast_self]
  exact Sage.Block.block_plain dot_S5000x128_S128x64_S5000x64_1_0_0_1_n_n rfl v0 v3 v5 v7 v12 _ _ _ _ _ _ _

/-- The layer of the arrays the region finds: means, features, the two weight matrices, the bias row. -/
def G (c : Dev nD) : S100000x64.Idx → EReal :=
  Sage.dense false (V c main_v52) (V c main_v40) (V c main_arg8) (V c main_arg10)
    (fun q => V c main_v53 (ix2 (0 : Fin 1) q))

/-- The block index maps over the grid: the row-blocked windows sit at block `(t, 0)`, the whole-array ones at `(0, 0)`. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

theorem t_lt (t : Fin cfg2.N) : t.val < 20 := lt_of_lt_of_eq t.isLt N_2

/-- Row `r` of point `t`'s block of means is row `5000·t + r` of the array. -/
theorem read0 (c : Dev nD) (t : Fin cfg2.N) (r : Fin 5000) (k : Fin 128) (P : Fin 100000)
    (hP : P.val = t.val * 5000 + r.val) : iblk2 V c 0 t (ix2 r k) = V c main_v52 (ix2 P k) := by
  obtain ⟨e0, e1, -⟩ := idx_facts t
  show V c main_v52 (((cfg2.win 0).blk t).view.emb (ix2 r k)) = _
  refine congrArg (V c main_v52) (funext fun a => Fin.ext ?_)
  match a with
  | ⟨0, _⟩ => show win2_0.index t (0 : Fin 2) * 5000 + 1 * r.val = P.val; omega
  | ⟨1, _⟩ => show win2_0.index t (1 : Fin 2) * 128 + 1 * k.val = k.val; omega

/-- The same for the block of features. -/
theorem read1 (c : Dev nD) (t : Fin cfg2.N) (r : Fin 5000) (k : Fin 128) (P : Fin 100000)
    (hP : P.val = t.val * 5000 + r.val) : iblk2 V c 1 t (ix2 r k) = V c main_v40 (ix2 P k) := by
  obtain ⟨-, -, e0, e1, -⟩ := idx_facts t
  show V c main_v40 (((cfg2.win 1).blk t).view.emb (ix2 r k)) = _
  refine congrArg (V c main_v40) (funext fun a => Fin.ext ?_)
  match a with
  | ⟨0, _⟩ => show win2_1.index t (0 : Fin 2) * 5000 + 1 * r.val = P.val; omega
  | ⟨1, _⟩ => show win2_1.index t (1 : Fin 2) * 128 + 1 * k.val = k.val; omega

/-- Every point's block of the neighbour weights is the whole matrix. -/
theorem read2 (c : Dev nD) (t : Fin cfg2.N) (k : Fin 128) (q : Fin 64) :
    iblk2 V c 2 t (ix2 k q) = V c main_arg8 (ix2 k q) := by
  obtain ⟨-, -, -, -, e0, e1, -⟩ := idx_facts t
  show V c main_arg8 (((cfg2.win 2).blk t).view.emb (ix2 k q)) = _
  refine congrArg (V c main_arg8) (funext fun a => Fin.ext ?_)
  match a with
  | ⟨0, _⟩ => show win2_2.index t (0 : Fin 2) * 128 + 1 * k.val = k.val; omega
  | ⟨1, _⟩ => show win2_2.index t (1 : Fin 2) * 64 + 1 * q.val = q.val; omega

/-- Every point's block of the bias is the whole row. -/
theorem read3 (c : Dev nD) (t : Fin cfg2.N) (q : Fin 64) :
    iblk2 V c 3 t (ix2 (0 : Fin 1) q) = V c main_v53 (ix2 (0 : Fin 1) q) := by
  obtain ⟨-, -, -, -, -, -, e0, e1, -⟩ := idx_facts t
  show V c main_v53 (((cfg2.win 3).blk t).view.emb (ix2 (0 : Fin 1) q)) = _
  refine congrArg (V c main_v53) (funext fun a => Fin.ext ?_)
  match a with
  | ⟨0, _⟩ => show win2_3.index t (0 : Fin 2) * 1 + 1 * 0 = 0; omega
  | ⟨1, _⟩ => show win2_3.index t (1 : Fin 2) * 64 + 1 * q.val = q.val; omega

/-- Every point's block of the root weights is the whole matrix. -/
theorem read4 (c : Dev nD) (t : Fin cfg2.N) (k : Fin 128) (q : Fin 64) :
    iblk2 V c 4 t (ix2 k q) = V c main_arg10 (ix2 k q) := by
  obtain ⟨-, -, -, -, -, -, -, -, e0, e1, -⟩ := idx_facts t
  show V c main_arg10 (((cfg2.win 4).blk t).view.emb (ix2 k q)) = _
  refine congrArg (V c main_arg10) (funext fun a => Fin.ext ?_)
  match a with
  | ⟨0, _⟩ => show win2_4.index t (0 : Fin 2) * 128 + 1 * k.val = k.val; omega
  | ⟨1, _⟩ => show win2_4.index t (1 : Fin 2) * 64 + 1 * q.val = q.val; omega

/-- What point `t` writes back is block `t` of the layer of the whole arrays. -/
theorem flushed_eq (c : Dev nD) (t : Fin cfg2.N) :
    (dat2 V c).flushed 5 t = ((cfg2.win 5).blk t).view.read (Elt Ideal) (G V c) := by
  show (cfg2.win 5).cut (grid2.coords t) ((dat2 V c).after 5 t) = _
  rw [after2_5]
  unfold out2_5
  rw [View.canon_unit_zero hz]
  simp only [View.ld_unit_zero (S := S5000x128) hz, View.ld_unit_zero (S := S128x64) hz,
    View.ld_unit_zero (S := S1x64) hz, View.ld_unit_zero (S := S5000x64) hz]
  rw [pay_eq]
  obtain ⟨-, -, -, -, -, -, -, -, -, -, e0, e1⟩ := idx_facts t
  have ht := t_lt t
  funext j
  obtain ⟨r, q, rfl⟩ : ∃ (r : Fin 5000) (q : Fin 64), j = ix2 r q := ⟨j 0, j 1, eq_ix2 j⟩
  have hr := r.isLt
  have hP : t.val * 5000 + r.val < 100000 := by omega
  show Sage.dense false (iblk2 V c 0 t) (iblk2 V c 1 t) (iblk2 V c 2 t) (iblk2 V c 4 t)
      (fun q => iblk2 V c 3 t (ix2 (0 : Fin 1) q)) (ix2 r q) = G V c (((cfg2.win 5).blk t).view.emb (ix2 r q))
  have he : ((cfg2.win 5).blk t).view.emb (ix2 r q) = ix2 (⟨t.val * 5000 + r.val, hP⟩ : Fin 100000) q :=
    funext fun a => Fin.ext (by
      match a with
      | ⟨0, _⟩ => show win2_5.index t (0 : Fin 2) * 5000 + 1 * r.val = t.val * 5000 + r.val; omega
      | ⟨1, _⟩ => show win2_5.index t (1 : Fin 2) * 64 + 1 * q.val = q.val; omega)
  rw [he]
  unfold G
  rw [Sage.dense_apply, Sage.dense_apply]
  have h0 : (fun k => iblk2 V c 0 t (ix2 r k)) = fun k => V c main_v52 (ix2 (⟨t.val * 5000 + r.val, hP⟩ : Fin 100000) k) :=
    funext fun k => read0 V c t r k _ rfl
  have h1 : (fun k => iblk2 V c 1 t (ix2 r k)) = fun k => V c main_v40 (ix2 (⟨t.val * 5000 + r.val, hP⟩ : Fin 100000) k) :=
    funext fun k => read1 V c t r k _ rfl
  have h2 : (fun (k : Fin 128) (q : Fin 64) => iblk2 V c 2 t (ix2 k q)) = fun k q => V c main_arg8 (ix2 k q) :=
    funext fun k => funext fun q => read2 V c t k q
  have h3 : (fun (q : Fin 64) => iblk2 V c 3 t (ix2 (0 : Fin 1) q)) = fun q => V c main_v53 (ix2 (0 : Fin 1) q) :=
    funext fun q => read3 V c t q
  have h4 : (fun (k : Fin 128) (q : Fin 64) => iblk2 V c 4 t (ix2 k q)) = fun k q => V c main_arg10 (ix2 k q) :=
    funext fun k => funext fun q => read4 V c t k q
  rw [h0, h1, h2, h3, h4]

/-- An index of the output array is in point `t`'s block iff each coordinate is in the block's range. -/
theorem mem_blk (t : Fin cfg2.N) (i : S100000x64.Idx) :
    i ∈ ((cfg2.win 5).blk t).view.set ↔ ∀ a : Fin 2, win2_5.index t a * S5000x64.size a ≤ (i a).val
      ∧ (i a).val < win2_5.index t a * S5000x64.size a + S5000x64.size a := by
  show i ∈ ((View.whole main_v54).slice (win2_5.rect t)).set ↔ _
  rw [View.set_slice_whole, Rect.mem_set_unit]
  exact Iff.rfl

/-- Row `p` of the output is written by point `p / 5000`. -/
theorem cover (i : S100000x64.Idx) :
    ∃ t : Fin cfg2.N, (cfg2.win 5).flush t = true ∧ i ∈ ((cfg2.win 5).blk t).view.set := by
  have hi0 : (i 0).val < 100000 := (i 0).isLt
  have hi1 : (i 1).val < 64 := (i 1).isLt
  have hN : (i 0).val / 5000 < cfg2.N := by rw [show cfg2.N = 20 from N_2]; omega
  obtain ⟨-, -, -, -, -, -, -, -, -, -, e0, e1⟩ := idx_facts ⟨(i 0).val / 5000, hN⟩
  refine ⟨⟨(i 0).val / 5000, hN⟩, flush2_5 _, ?_⟩
  rw [mem_blk]
  intro a
  match a with
  | ⟨0, _⟩ =>
    show win2_5.index ⟨(i 0).val / 5000, hN⟩ (0 : Fin 2) * 5000 ≤ (i 0).val
      ∧ (i 0).val < win2_5.index ⟨(i 0).val / 5000, hN⟩ (0 : Fin 2) * 5000 + 5000
    rw [e0]; show (i 0).val / 5000 * 5000 ≤ (i 0).val ∧ (i 0).val < (i 0).val / 5000 * 5000 + 5000; omega
  | ⟨1, _⟩ =>
    show win2_5.index ⟨(i 0).val / 5000, hN⟩ (1 : Fin 2) * 64 ≤ (i 1).val
      ∧ (i 1).val < win2_5.index ⟨(i 0).val / 5000, hN⟩ (1 : Fin 2) * 64 + 64
    rw [e1]; omega

/-- The output array after the region: the last layer of the arrays the region finds. -/
theorem value (c : Dev nD) : (dat2 V c).arrAt 5 cfg2.N = G V c :=
  (dat2 V c).arrAt_eq_of_cover 5 (G V c) (fun t _ => flushed_eq V c t) (fun i => cover i)

end Cert.KernelIdeal.Region2

end
-- ==== Proof.HostValue.lean ====
/-
  The host operations between the dense kernels, read as functions of the buffers they start from.

  Before each kernel the host gathers the layer's input rows along the edges' sources, adds them up at the edges'
  destinations and scales row `p` by the reciprocal of `max(in-degree p, 1)`; the edge lists and the reciprocal degrees
  are computed once, before the first kernel, and reused. Each stretch of host operations is read here at the buffers
  the next kernel takes, from ANY starting contents `W`, and the buffers a stretch does not write keep their contents.
-/
import proofs.«127516_j40020505264508_1_alg».proof.Proof.Gen.KernelIdeal.Launch
import Idealize.ShloMosaic.Lib.StableHlo.Run
import Idealize.ShloMosaic.PureOps.Ideal

noncomputable section

namespace Cert.KernelIdeal.HostValue

open Cert.KernelIdeal Cert.KernelIdeal.Gen Idealize.ShloMosaic Idealize.ShloMosaic.TcCoe
open Idealize.ShloMosaic.StableHlo Idealize.SL.Sem

/-- The edges' sources: row 0 of the edge table. -/
def srcOf (ei : IVec S2x1600000 32) : IVec S1600000 32 :=
  shapeCast S1600000 (extractStridedSlice S1x1600000 ![0, 0] ei slices_S2x1600000_S1x1600000_0_0) shapeCasts_S1x1600000_S1600000

/-- The edges' destinations: row 1 of the edge table. -/
def dstOf (ei : IVec S2x1600000 32) : IVec S1600000 32 :=
  shapeCast S1600000 (extractStridedSlice S1x1600000 ![1, 0] ei slices_S2x1600000_S1x1600000_1_0) shapeCasts_S1x1600000_S1600000

/-- The in-degrees: a one added at every edge's destination. -/
def degOf (dst : IVec S1600000 32) : FVec Ideal S100000 .f32 :=
  Host.scatterAdd scatter_S100000_S1600000x1_S1600000_n_0_0_1
    (broadcastInDim S100000 ![] bcast_S_S100000 (constant (F := Ideal) S_ .f32 0x00000000#32))
    (broadcastInDim S1600000x1 ![0] bcast_S1600000_S1600000x1_0 dst)
    (broadcastInDim S1600000 ![] bcast_S_S1600000 (constant (F := Ideal) S_ .f32 0x3F800000#32))

/-- One over the in-degree floored at one, as a column. -/
def recipDeg (dst : IVec S1600000 32) : FVec Ideal S100000x1 .f32 :=
  shapeCast S100000x1 (Host.divf (broadcastInDim S100000 ![] bcast_S_S100000 (constant (F := Ideal) S_ .f32 0x3F800000#32))
    (maximumf (degOf dst) (broadcastInDim S100000 ![] bcast_S_S100000 (constant (F := Ideal) S_ .f32 0x3F800000#32))))
    shapeCasts_S100000_S100000x1

/-- The rows of `feat` gathered along the sources (a negative index wrapped once) and summed at the destinations. -/
def aggr (feat : FVec Ideal S100000x128 .f32) (src dst : IVec S1600000 32) : FVec Ideal S100000x128 .f32 :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (Host.gather gather_S100000x128_S1600000x1_S1600000x128_1_0_n_n_0_1_1128 feat
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

/-- The neighbourhood sums scaled row by row. -/
def meanOf (feat : FVec Ideal S100000x128 .f32) (src dst : IVec S1600000 32) (rd : FVec Ideal S100000x1 .f32) :
    FVec Ideal S100000x128 .f32 :=
  mulf (aggr feat src dst) (broadcastInDim S100000x128 ![0, 1] bcast_S100000x1_S100000x128_0_1 rd)

/-! ## What each stretch writes -/

abbrev written0 : List (Ref sig .tc) := [main_v0, main_v1, main_v2, main_v3, main_cst, main_v4, main_cst_0, main_v5, main_v6, main_v7, main_cst_1, main_v8, main_v9, main_cst_2, main_v10, main_v11, main_v12, main_c, main_v13, main_v14, main_c_3, main_v15, main_v16, main_v17, main_v18, main_v19, main_cst_4, main_v20, main_v21, main_v22, main_v23, main_v24, main_v25]
abbrev written1 : List (Ref sig .tc) := [main_c_5, main_v27, main_v28, main_c_6, main_v29, main_v30, main_v31, main_v32, main_v33, main_cst_7, main_v34, main_v35, main_v36, main_v37, main_v38, main_v39]
abbrev written2 : List (Ref sig .tc) := [main_c_8, main_v41, main_v42, main_c_9, main_v43, main_v44, main_v45, main_v46, main_v47, main_cst_10, main_v48, main_v49, main_v50, main_v51, main_v52, main_v53]

theorem writes0 : (hostOps0 : List (HloOp τ sig (Elt Ideal))).Forall fun op => op.writes ⊆ (written0.map (Proc.devRef (τ := τ) .tc)).toFinset := by
  simp only [List.Forall]
  repeat' apply And.intro
  all_goals (simp only [StableHlo.nullary_writes, StableHlo.unary_writes, StableHlo.binary_writes, StableHlo.ternary_writes,
    StableHlo.quaternary_writes, StableHlo.reshape_writes, StableHlo.binaryIndexed_writes, StableHlo.unaryIndexed_writes,
    StableHlo.nary_writes, Finset.singleton_subset_iff, List.mem_toFinset]; exact List.mem_map_of_mem (by decide))

theorem writes1 : (hostOps1 : List (HloOp τ sig (Elt Ideal))).Forall fun op => op.writes ⊆ (written1.map (Proc.devRef (τ := τ) .tc)).toFinset := by
  simp only [List.Forall]
  repeat' apply And.intro
  all_goals (simp only [StableHlo.nullary_writes, StableHlo.unary_writes, StableHlo.binary_writes, StableHlo.ternary_writes,
    StableHlo.quaternary_writes, StableHlo.reshape_writes, StableHlo.binaryIndexed_writes, StableHlo.unaryIndexed_writes,
    StableHlo.nary_writes, Finset.singleton_subset_iff, List.mem_toFinset]; exact List.mem_map_of_mem (by decide))

theorem writes2 : (hostOps2 : List (HloOp τ sig (Elt Ideal))).Forall fun op => op.writes ⊆ (written2.map (Proc.devRef (τ := τ) .tc)).toFinset := by
  simp only [List.Forall]
  repeat' apply And.intro
  all_goals (simp only [StableHlo.nullary_writes, StableHlo.unary_writes, StableHlo.binary_writes, StableHlo.ternary_writes,
    StableHlo.quaternary_writes, StableHlo.reshape_writes, StableHlo.binaryIndexed_writes, StableHlo.unaryIndexed_writes,
    StableHlo.nary_writes, Finset.singleton_subset_iff, List.mem_toFinset]; exact List.mem_map_of_mem (by decide))

variable (W : Valuation τ sig (Elt Ideal))

theorem keep0 (r : Ref sig .tc) (h : r ∉ written0) : after hostOps0 W (Proc.devRef .tc r) = W (Proc.devRef .tc r) :=
  after_of_writes_sub hostOps0 W writes0 h
theorem keep1 (r : Ref sig .tc) (h : r ∉ written1) : after hostOps1 W (Proc.devRef .tc r) = W (Proc.devRef .tc r) :=
  after_of_writes_sub hostOps1 W writes1 h
theorem keep2 (r : Ref sig .tc) (h : r ∉ written2) : after hostOps2 W (Proc.devRef .tc r) = W (Proc.devRef .tc r) :=
  after_of_writes_sub hostOps2 W writes2 h

/-! ## The first stretch -/

theorem first_src : (after (hostOps0 (F := Ideal)) W (Proc.devRef .tc main_v1) : IVec S1600000 32)
    = srcOf (W (Proc.devRef .tc main_arg1)) := by
  dsimp only [hostOps0]; after_results; rfl

theorem first_dst : (after (hostOps0 (F := Ideal)) W (Proc.devRef .tc main_v3) : IVec S1600000 32)
    = dstOf (W (Proc.devRef .tc main_arg1)) := by
  dsimp only [hostOps0]; after_results; rfl

theorem first_recip : (after (hostOps0 (F := Ideal)) W (Proc.devRef .tc main_v12) : FVec Ideal S100000x1 .f32)
    = recipDeg (dstOf (W (Proc.devRef .tc main_arg1))) := by
  dsimp only [hostOps0]; after_results; rfl

set_option maxHeartbeats 1000000 in
theorem first_mean : (after (hostOps0 (F := Ideal)) W (Proc.devRef .tc main_v24) : FVec Ideal S100000x128 .f32)
    = meanOf (W (Proc.devRef .tc main_arg0)) (srcOf (W (Proc.devRef .tc main_arg1))) (dstOf (W (Proc.devRef .tc main_arg1)))
        (recipDeg (dstOf (W (Proc.devRef .tc main_arg1)))) := by
  dsimp only [hostOps0]; after_results_simp; rfl

theorem first_bias : (after (hostOps0 (F := Ideal)) W (Proc.devRef .tc main_v25) : FVec Ideal S1x128 .f32)
    = shapeCast S1x128 (W (Proc.devRef .tc main_arg3)) shapeCasts_S128_S1x128 := by
  dsimp only [hostOps0]; after_results; rfl

/-! ## The second stretch -/

set_option maxHeartbeats 1000000 in
theorem second_mean : (after (hostOps1 (F := Ideal)) W (Proc.devRef .tc main_v38) : FVec Ideal S100000x128 .f32)
    = meanOf (W (Proc.devRef .tc main_v26)) (W (Proc.devRef .tc main_v1)) (W (Proc.devRef .tc main_v3))
        (W (Proc.devRef .tc main_v12)) := by
  dsimp only [hostOps1]; after_results_simp; rfl

theorem second_bias : (after (hostOps1 (F := Ideal)) W (Proc.devRef .tc main_v39) : FVec Ideal S1x128 .f32)
    = shapeCast S1x128 (W (Proc.devRef .tc main_arg6)) shapeCasts_S128_S1x128 := by
  dsimp only [hostOps1]; after_results; rfl

/-! ## The third stretch -/

set_option maxHeartbeats 1000000 in
theorem third_mean : (after (hostOps2 (F := Ideal)) W (Proc.devRef .tc main_v52) : FVec Ideal S100000x128 .f32)
    = meanOf (W (Proc.devRef .tc main_v40)) (W (Proc.devRef .tc main_v1)) (W (Proc.devRef .tc main_v3))
        (W (Proc.devRef .tc main_v12)) := by
  dsimp only [hostOps2]; after_results_simp; rfl

theorem third_bias : (after (hostOps2 (F := Ideal)) W (Proc.devRef .tc main_v53) : FVec Ideal S1x64 .f32)
    = shapeCast S1x64 (W (Proc.devRef .tc main_arg9)) shapeCasts_S64_S1x64 := by
  dsimp only [hostOps2]; after_results; rfl

end Cert.KernelIdeal.HostValue

end
-- ==== Proof.MeanBridge.lean ====
/-
  The two programs' neighbourhood means are one function.

  Both gather the input rows along the edges' sources and add them up at the edges' destinations, with the same
  operations. The kernel's program then multiplies row `p` by `1 / max(deg p, 1)`, computed once as a column; the
  reference divides row `p` by `max(deg p, 1)`. Since `max(deg p, 1) ≥ 1` is not zero, the two agree on every
  extended real (`Sage.mul_recip_eq_div`).
-/
import proofs.«127516_j40020505264508_1_alg».proof.Proof.HostValue
import proofs.«127516_j40020505264508_1_alg».proof.Proof.Gen.ReferenceIdeal.Read
import proofs.«127516_j40020505264508_1_alg».proof.Proof.Spec
import proofs.«127516_j40020505264508_1_alg».proof.Proof.LibColumn
import Idealize.ShloMosaic.Lib.Pipeline.Value

noncomputable section

namespace Cert.MeanBridge

open Idealize.ShloMosaic Idealize.ShloMosaic.ValueIdx
open Cert.KernelIdeal.HostValue

/-- The neighbourhood sums are the same term in both programs. -/
theorem aggr_eq (feat : FVec Ideal ⟨2, ![100000, 128]⟩ .f32) (ei : IVec ⟨2, ![2, 1600000]⟩ 32) :
    aggr feat (srcOf ei) (dstOf ei) = Cert.ReferenceIdeal.Read.val_main_v13 (F := Ideal) feat ei := by
  unfold aggr srcOf dstOf Cert.ReferenceIdeal.Read.val_main_v13 Cert.ReferenceIdeal.Read.val_main_v12
    Cert.ReferenceIdeal.Read.val_main_v11 Cert.ReferenceIdeal.Read.val_main_v10 Cert.ReferenceIdeal.Read.val_main_v9
    Cert.ReferenceIdeal.Read.val_main_v8 Cert.ReferenceIdeal.Read.val_main_v7 Cert.ReferenceIdeal.Read.val_main_v6
    Cert.ReferenceIdeal.Read.val_main_v5 Cert.ReferenceIdeal.Read.val_main_v4 Cert.ReferenceIdeal.Read.val_main_c
    Cert.ReferenceIdeal.Read.val_main_c_0 Cert.ReferenceIdeal.Read.val_main_cst Cert.ReferenceIdeal.Read.val_main_v3
    Cert.ReferenceIdeal.Read.val_main_v2 Cert.ReferenceIdeal.Read.val_main_v1 Cert.ReferenceIdeal.Read.val_main_v0
  rfl

/-- So are the in-degrees. -/
theorem deg_eq (ei : IVec ⟨2, ![2, 1600000]⟩ 32) :
    degOf (dstOf ei) = Cert.ReferenceIdeal.Read.val_main_v17 (F := Ideal) ei := by
  unfold degOf dstOf Cert.ReferenceIdeal.Read.val_main_v17 Cert.ReferenceIdeal.Read.val_main_v16
    Cert.ReferenceIdeal.Read.val_main_v15 Cert.ReferenceIdeal.Read.val_main_v14 Cert.ReferenceIdeal.Read.val_main_cst_1
    Cert.ReferenceIdeal.Read.val_main_cst_2 Cert.ReferenceIdeal.Read.val_main_v3 Cert.ReferenceIdeal.Read.val_main_v2
  rfl

/-- A column repeated across 128 columns, read at `(p, q)`. -/
theorem colBroadcast_apply (x : FVec Ideal ⟨2, ![100000, 1]⟩ .f32)
    (h : (⟨2, ![100000, 1]⟩ : Shape).BroadcastsInDim ⟨2, ![100000, 128]⟩ ![0, 1]) (p : Fin 100000) (q : Fin 128) :
    broadcastInDim ⟨2, ![100000, 128]⟩ ![0, 1] h x (ix2 p q) = x (ix2 p (0 : Fin 1)) :=
  broadcastInDim_apply _ h x (ix2 p q) (ix2 p (0 : Fin 1)) (fun a => match a with
    | ⟨0, _⟩ => by show p.val = if (100000 : Nat) = 1 then 0 else p.val; rw [if_neg (by decide)]
    | ⟨1, _⟩ => by show 0 = if (1 : Nat) = 1 then 0 else q.val; rw [if_pos rfl])

/-- A scalar repeated along a vector, read at an index. -/
theorem splat_apply (x : FVec Ideal ⟨0, ![]⟩ .f32) (h : (⟨0, ![]⟩ : Shape).BroadcastsInDim ⟨1, ![100000]⟩ ![])
    (i : (⟨1, ![100000]⟩ : Shape).Idx) : broadcastInDim ⟨1, ![100000]⟩ ![] h x i = x (fun a => a.elim0) :=
  broadcastInDim_apply _ h x i (fun a => a.elim0) (fun a => a.elim0)

/-- The product with a repeated column, read at `(p, q)`. -/
theorem scaled_apply (S : FVec Ideal ⟨2, ![100000, 128]⟩ .f32) (rd : FVec Ideal ⟨2, ![100000, 1]⟩ .f32)
    (h : (⟨2, ![100000, 1]⟩ : Shape).BroadcastsInDim ⟨2, ![100000, 128]⟩ ![0, 1]) (p : Fin 100000) (q : Fin 128) :
    mulf S (broadcastInDim ⟨2, ![100000, 128]⟩ ![0, 1] h rd) (ix2 p q) = S (ix2 p q) * rd (ix2 p (0 : Fin 1)) := by
  show S (ix2 p q) * broadcastInDim ⟨2, ![100000, 128]⟩ ![0, 1] h rd (ix2 p q) = _
  rw [colBroadcast_apply]

/-- One over a vector floored at one, as a column, read at `(p, 0)`. -/
theorem recip_apply (dg : FVec Ideal ⟨1, ![100000]⟩ .f32)
    (h1 h2 : (⟨0, ![]⟩ : Shape).BroadcastsInDim ⟨1, ![100000]⟩ ![])
    (hsc : (⟨1, ![100000]⟩ : Shape).ShapeCasts ⟨2, ![100000, 1]⟩) (p : Fin 100000) :
    shapeCast ⟨2, ![100000, 1]⟩ (Host.divf
        (broadcastInDim ⟨1, ![100000]⟩ ![] h1 (constant (F := Ideal) ⟨0, ![]⟩ .f32 0x3F800000#32))
        (maximumf dg (broadcastInDim ⟨1, ![100000]⟩ ![] h2 (constant (F := Ideal) ⟨0, ![]⟩ .f32 0x3F800000#32)))) hsc
      (ix2 p (0 : Fin 1)) = Ideal.div 1 (max (dg (ix1 p)) 1) := by
  rw [Lib.Column.shapeCast_a_a1_apply]
  show Ideal.div (broadcastInDim ⟨1, ![100000]⟩ ![] h1 (constant (F := Ideal) ⟨0, ![]⟩ .f32 0x3F800000#32) (ix1 p))
    (max (dg (ix1 p)) (broadcastInDim ⟨1, ![100000]⟩ ![] h2 (constant (F := Ideal) ⟨0, ![]⟩ .f32 0x3F800000#32) (ix1 p))) = _
  rw [splat_apply]
  show Ideal.div (Ideal.ofBits .f32 0x3F800000#32) (max (dg (ix1 p)) (Ideal.ofBits .f32 0x3F800000#32)) = _
  rw [Sage.ofBits_one]

/-- Entry `(p, 0)` of the column of reciprocal degrees. -/
theorem recipDeg_apply (dst : IVec ⟨1, ![1600000]⟩ 32) (p : Fin 100000) :
    recipDeg dst (ix2 p (0 : Fin 1)) = Ideal.div 1 (max (degOf dst (ix1 p)) 1) := by
  unfold recipDeg
  generalize degOf dst = dg
  exact recip_apply dg _ _ _ p

/-- The kernel program's scaled sums are the reference's quotient. -/
theorem mean_eq (feat : FVec Ideal ⟨2, ![100000, 128]⟩ .f32) (ei : IVec ⟨2, ![2, 1600000]⟩ 32) :
    meanOf feat (srcOf ei) (dstOf ei) (recipDeg (dstOf ei)) = Cert.ReferenceIdeal.Read.val_main_v22 (F := Ideal) feat ei := by
  funext i
  obtain ⟨p, q, rfl⟩ : ∃ (p : Fin 100000) (q : Fin 128), i = ix2 p q := ⟨i 0, i 1, eq_ix2 i⟩
  have hi : Cert.ReferenceIdeal.Read.idx_main_v20 (Cert.ReferenceIdeal.Read.idx_main_v21 (ix2 p q)) = ix1 p :=
    funext fun a => Fin.ext (by match a with | ⟨0, _⟩ => rfl)
  rw [Cert.ReferenceIdeal.Read.val_main_v22_apply, Cert.ReferenceIdeal.Read.val_main_v21_apply,
    Cert.ReferenceIdeal.Read.val_main_v20_apply, Cert.ReferenceIdeal.Read.val_main_v19_apply,
    Cert.ReferenceIdeal.Read.val_main_v18_apply, Cert.ReferenceIdeal.Read.val_main_cst_3_apply, ← aggr_eq, ← deg_eq, hi]
  unfold meanOf
  rw [scaled_apply, recipDeg_apply]
  generalize aggr feat (srcOf ei) (dstOf ei) (ix2 p q) = a
  generalize degOf (dstOf ei) (ix1 p) = d
  show a * Ideal.div 1 (max d 1) = Ideal.div a (max d (Ideal.ofBits .f32 0x3F800000#32))
  rw [Sage.ofBits_one]
  exact Sage.mul_recip_eq_div _ _ (le_max_right _ _)

end Cert.MeanBridge

end
-- ==== Proof.KernelValue.lean ====
/-
  The kernel program's result, as the three-layer network of its arguments.

  The program runs a stretch of host operations, a dense kernel, a second stretch, a second kernel, a third stretch and
  a third kernel. Following the buffers' contents through these six steps: the first stretch leaves the edge lists, the
  column of reciprocal degrees and the scaled neighbourhood sums of the input features; each kernel leaves the layer of
  the means and features it is given (`Region0` … `Region2`); each later stretch leaves the scaled neighbourhood sums of
  the previous kernel's output, from the same edge lists and reciprocal degrees, which nothing in between writes. The
  weight and bias arguments are never written. The scaled sums are the reference's quotient (`MeanBridge`), so the
  result buffer ends as `Sage.net` of the arguments over the reference's neighbourhood mean.
-/
import proofs.«127516_j40020505264508_1_alg».proof.Proof.FrameResult
import proofs.«127516_j40020505264508_1_alg».proof.Proof.Region0
import proofs.«127516_j40020505264508_1_alg».proof.Proof.Region1
import proofs.«127516_j40020505264508_1_alg».proof.Proof.Region2
import proofs.«127516_j40020505264508_1_alg».proof.Proof.HostValue
import proofs.«127516_j40020505264508_1_alg».proof.Proof.MeanBridge
import Idealize.ShloMosaic.Lib.Pipeline.Value

set_option maxRecDepth 16384

noncomputable section

namespace Cert.KernelIdeal.KernelValue

open Cert.KernelIdeal Cert.KernelIdeal.Gen Cert.KernelIdeal.HostValue
open Idealize.ShloMosaic Idealize.ShloMosaic.TcCoe Idealize.ShloMosaic.ValueIdx Idealize.ShloMosaic.StableHlo
open Idealize.SL.Sem

/-- A vector cast to one row, read at `(0, q)`. -/
theorem rowCast_apply {α : Type} {n : ℕ} (x : (⟨1, ![n]⟩ : Shape).Idx → α)
    (h : (⟨1, ![n]⟩ : Shape).ShapeCasts ⟨2, ![1, n]⟩) (q : Fin n) :
    shapeCast ⟨2, ![1, n]⟩ x h (ix2 (0 : Fin 1) q) = x (ix1 q) :=
  shapeCast_apply x h _ _ (by
    rw [Shape.rowMajor_val_two, Shape.rowMajor_val_one]
    show q.val = 0 * n + q.val
    omega)

variable (m : (ℓ : Loc nD τ sig) → Buf (Elt Ideal) ℓ) (ρ : Dev nD → PrngReg) (c : Dev nD)

/-- The kernel program's neighbourhood mean of a feature array, from the launch's edge table. -/
def mean (f : FVec Ideal S100000x128 .f32) : FVec Ideal S100000x128 .f32 :=
  meanOf f (srcOf (m ((c : Thread nD τ).loc main_arg1))) (dstOf (m ((c : Thread nD τ).loc main_arg1)))
    (recipDeg (dstOf (m ((c : Thread nD τ).loc main_arg1))))

/-- The first layer's output. -/
def h1 : FVec Ideal S100000x128 .f32 :=
  Sage.dense true (mean m c (m ((c : Thread nD τ).loc main_arg0))) (m ((c : Thread nD τ).loc main_arg0))
    (m ((c : Thread nD τ).loc main_arg2)) (m ((c : Thread nD τ).loc main_arg4))
    (fun q => m ((c : Thread nD τ).loc main_arg3) (ix1 q))

/-- The second layer's output. -/
def h2 : FVec Ideal S100000x128 .f32 :=
  Sage.dense true (mean m c (h1 m c)) (h1 m c)
    (m ((c : Thread nD τ).loc main_arg5)) (m ((c : Thread nD τ).loc main_arg7))
    (fun q => m ((c : Thread nD τ).loc main_arg6) (ix1 q))

/-- The third layer's output. -/
def h3 : FVec Ideal S100000x64 .f32 :=
  Sage.dense false (mean m c (h2 m c)) (h2 m c)
    (m ((c : Thread nD τ).loc main_arg8)) (m ((c : Thread nD τ).loc main_arg10))
    (fun q => m ((c : Thread nD τ).loc main_arg9) (ix1 q))

/-! ## After the first stretch -/

theorem w1_keep (b : Ref sig .tc) (h : b ∉ written0) :
    W1 m ρ c (Proc.devRef .tc b) = W0 m ρ c (Proc.devRef .tc b) := keep0 (W0 m ρ c) b h

theorem w1_src : W1 m ρ c (Proc.devRef .tc main_v1) = srcOf (m ((c : Thread nD τ).loc main_arg1)) :=
  first_src (W0 m ρ c)
theorem w1_dst : W1 m ρ c (Proc.devRef .tc main_v3) = dstOf (m ((c : Thread nD τ).loc main_arg1)) :=
  first_dst (W0 m ρ c)
theorem w1_recip : W1 m ρ c (Proc.devRef .tc main_v12) = recipDeg (dstOf (m ((c : Thread nD τ).loc main_arg1))) :=
  first_recip (W0 m ρ c)

/-- The first kernel's output. -/
theorem w2_out : W2 m ρ c (Proc.devRef .tc main_v26) = h1 m c := by
  refine (W2_arr m ρ c 5).trans ((Region0.value (V1 m ρ) c).trans ?_)
  unfold Region0.G h1 mean
  have e24 : V1 m ρ c main_v24 = meanOf (m ((c : Thread nD τ).loc main_arg0)) (srcOf (m ((c : Thread nD τ).loc main_arg1)))
      (dstOf (m ((c : Thread nD τ).loc main_arg1))) (recipDeg (dstOf (m ((c : Thread nD τ).loc main_arg1)))) :=
    first_mean (W0 m ρ c)
  have e0 : V1 m ρ c main_arg0 = m ((c : Thread nD τ).loc main_arg0) := w1_keep m ρ c main_arg0 (by decide)
  have e2 : V1 m ρ c main_arg2 = m ((c : Thread nD τ).loc main_arg2) := w1_keep m ρ c main_arg2 (by decide)
  have e4 : V1 m ρ c main_arg4 = m ((c : Thread nD τ).loc main_arg4) := w1_keep m ρ c main_arg4 (by decide)
  have e25 : (fun q : Fin 128 => V1 m ρ c main_v25 (ix2 (0 : Fin 1) q)) = fun q => m ((c : Thread nD τ).loc main_arg3) (ix1 q) :=
    funext fun q => (congrFun (first_bias (W0 m ρ c)) (ix2 (0 : Fin 1) q)).trans (rowCast_apply _ _ q)
  rw [e24, e0, e2, e4, e25]

/-! ## Through the first kernel and the second stretch -/

theorem w2_keep (b : Ref sig .tc) (h : ∀ w, Pipeline.arrRef spec0 w ≠ b) :
    W2 m ρ c (Proc.devRef .tc b) = W1 m ρ c (Proc.devRef .tc b) := W2_of_ne m ρ c b h

theorem w3_keep (b : Ref sig .tc) (h : b ∉ written1) :
    W3 m ρ c (Proc.devRef .tc b) = W2 m ρ c (Proc.devRef .tc b) := keep1 (W2 m ρ c) b h

/-- The second kernel's output. -/
theorem w4_out : W4 m ρ c (Proc.devRef .tc main_v40) = h2 m c := by
  refine (W4_arr m ρ c 5).trans ((Region1.value (V3 m ρ) c).trans ?_)
  unfold Region1.G h2 mean
  have e38 : V3 m ρ c main_v38 = meanOf (h1 m c) (srcOf (m ((c : Thread nD τ).loc main_arg1)))
      (dstOf (m ((c : Thread nD τ).loc main_arg1))) (recipDeg (dstOf (m ((c : Thread nD τ).loc main_arg1)))) := by
    refine (second_mean (W2 m ρ c)).trans ?_
    rw [w2_out, w2_keep m ρ c main_v1 (by decide), w2_keep m ρ c main_v3 (by decide), w2_keep m ρ c main_v12 (by decide),
      w1_src, w1_dst, w1_recip]
  have e26 : V3 m ρ c main_v26 = h1 m c := (w3_keep m ρ c main_v26 (by decide)).trans (w2_out m ρ c)
  have e5 : V3 m ρ c main_arg5 = m ((c : Thread nD τ).loc main_arg5) :=
    (w3_keep m ρ c main_arg5 (by decide)).trans ((w2_keep m ρ c main_arg5 (by decide)).trans (w1_keep m ρ c main_arg5 (by decide)))
  have e7 : V3 m ρ c main_arg7 = m ((c : Thread nD τ).loc main_arg7) :=
    (w3_keep m ρ c main_arg7 (by decide)).trans ((w2_keep m ρ c main_arg7 (by decide)).trans (w1_keep m ρ c main_arg7 (by decide)))
  have e6 : W2 m ρ c (Proc.devRef .tc main_arg6) = m ((c : Thread nD τ).loc main_arg6) :=
    (w2_keep m ρ c main_arg6 (by decide)).trans (w1_keep m ρ c main_arg6 (by decide))
  have e39 : (fun q : Fin 128 => V3 m ρ c main_v39 (ix2 (0 : Fin 1) q)) = fun q => m ((c : Thread nD τ).loc main_arg6) (ix1 q) :=
    funext fun q => (congrFun (second_bias (W2 m ρ c)) (ix2 (0 : Fin 1) q)).trans ((rowCast_apply _ _ q).trans (congrFun e6 (ix1 q)))
  rw [e38, e26, e5, e7, e39]

/-! ## Through the second kernel and the third stretch -/

theorem w4_keep (b : Ref sig .tc) (h : ∀ w, Pipeline.arrRef spec1 w ≠ b) :
    W4 m ρ c (Proc.devRef .tc b) = W3 m ρ c (Proc.devRef .tc b) := W4_of_ne m ρ c b h

theorem w5_keep (b : Ref sig .tc) (h : b ∉ written2) :
    W5 m ρ c (Proc.devRef .tc b) = W4 m ρ c (Proc.devRef .tc b) := keep2 (W4 m ρ c) b h

/-- A buffer no stretch and no kernel up to the third stretch writes holds what the first stretch left. -/
theorem w4_carried (b : Ref sig .tc) (h0 : ∀ w, Pipeline.arrRef spec0 w ≠ b) (h1 : b ∉ written1)
    (h2 : ∀ w, Pipeline.arrRef spec1 w ≠ b) : W4 m ρ c (Proc.devRef .tc b) = W1 m ρ c (Proc.devRef .tc b) :=
  (w4_keep m ρ c b h2).trans ((w3_keep m ρ c b h1).trans (w2_keep m ρ c b h0))

/-- The third kernel's output: the result buffer. -/
theorem w6_out : W6 m ρ c (Proc.devRef .tc main_v54) = h3 m c := by
  refine (W6_arr m ρ c 5).trans ((Region2.value (V5 m ρ) c).trans ?_)
  unfold Region2.G h3 mean
  have e52 : V5 m ρ c main_v52 = meanOf (h2 m c) (srcOf (m ((c : Thread nD τ).loc main_arg1)))
      (dstOf (m ((c : Thread nD τ).loc main_arg1))) (recipDeg (dstOf (m ((c : Thread nD τ).loc main_arg1)))) := by
    refine (third_mean (W4 m ρ c)).trans ?_
    rw [w4_out, w4_carried m ρ c main_v1 (by decide) (by decide) (by decide),
      w4_carried m ρ c main_v3 (by decide) (by decide) (by decide),
      w4_carried m ρ c main_v12 (by decide) (by decide) (by decide), w1_src, w1_dst, w1_recip]
  have e40 : V5 m ρ c main_v40 = h2 m c := (w5_keep m ρ c main_v40 (by decide)).trans (w4_out m ρ c)
  have e8 : V5 m ρ c main_arg8 = m ((c : Thread nD τ).loc main_arg8) :=
    (w5_keep m ρ c main_arg8 (by decide)).trans ((w4_carried m ρ c main_arg8 (by decide) (by decide) (by decide)).trans
      (w1_keep m ρ c main_arg8 (by decide)))
  have e10 : V5 m ρ c main_arg10 = m ((c : Thread nD τ).loc main_arg10) :=
    (w5_keep m ρ c main_arg10 (by decide)).trans ((w4_carried m ρ c main_arg10 (by decide) (by decide) (by decide)).trans
      (w1_keep m ρ c main_arg10 (by decide)))
  have e9 : W4 m ρ c (Proc.devRef .tc main_arg9) = m ((c : Thread nD τ).loc main_arg9) :=
    (w4_carried m ρ c main_arg9 (by decide) (by decide) (by decide)).trans (w1_keep m ρ c main_arg9 (by decide))
  have e53 : (fun q : Fin 64 => V5 m ρ c main_v53 (ix2 (0 : Fin 1) q)) = fun q => m ((c : Thread nD τ).loc main_arg9) (ix1 q) :=
    funext fun q => (congrFun (third_bias (W4 m ρ c)) (ix2 (0 : Fin 1) q)).trans ((rowCast_apply _ _ q).trans (congrFun e9 (ix1 q)))
  rw [e52, e40, e8, e10, e53]

/-! ## The network -/

/-- The kernel program's mean is the reference's. -/
theorem mean_eq (f : FVec Ideal S100000x128 .f32) :
    mean m c f = Cert.ReferenceIdeal.Read.val_main_v22 (F := Ideal) f (m ((c : Thread nD τ).loc main_arg1)) :=
  Cert.MeanBridge.mean_eq f _

/-- The network of the launch's arguments over the reference's neighbourhood mean. -/
def out : FVec Ideal S100000x64 .f32 :=
  Sage.net (fun f => Cert.ReferenceIdeal.Read.val_main_v22 (F := Ideal) f (m ((c : Thread nD τ).loc main_arg1)))
    (m ((c : Thread nD τ).loc main_arg0)) (m ((c : Thread nD τ).loc main_arg2)) (m ((c : Thread nD τ).loc main_arg3))
    (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9))
    (m ((c : Thread nD τ).loc main_arg10))

/-- The result buffer ends as that network. -/
theorem result_eq : W6 m ρ c (Proc.devRef .tc main_v54) = out m c := by
  rw [w6_out]
  unfold out h3 h2 h1 Sage.net
  simp only [mean_eq]

end Cert.KernelIdeal.KernelValue

end
-- ==== Proof.RefValue.lean ====
/-
  The reference program's result is the three-layer network of the specification.

  Each layer's dense half is read one output element at a time: the two matrix products are sums over the 128 input
  channels, the bias is read through two broadcasts, the row's sum of squares starts from the constant zero, and the
  quotient by the floored norm is read through one broadcast. The reference adds the bias before the second product,
  the specification after it; addition on the extended reals is commutative and associative, so the two agree. The
  neighbourhood mean of layers two and three is the same chain of operations as that of layer one, applied to the
  previous layer's result.
-/
import proofs.«127516_j40020505264508_1_alg».proof.Proof.Gen.ReferenceIdeal.Read
import proofs.«127516_j40020505264508_1_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Read Idealize.ShloMosaic Idealize.ShloMosaic.ValueIdx

/-- Node features, 100000 nodes by 128 channels. -/
abbrev A := (⟨S100000x128, .f32⟩ : BufTy).Contents (Elt Ideal)
/-- The edge list. -/
abbrev E := (⟨S2x1600000, .i32⟩ : BufTy).Contents (Elt Ideal)
/-- A hidden layer's weight matrix. -/
abbrev W := (⟨S128x128, .f32⟩ : BufTy).Contents (Elt Ideal)
/-- A hidden layer's bias. -/
abbrev B := (⟨S128, .f32⟩ : BufTy).Contents (Elt Ideal)
/-- The last layer's weight matrix. -/
abbrev W' := (⟨S128x64, .f32⟩ : BufTy).Contents (Elt Ideal)
/-- The last layer's bias. -/
abbrev B' := (⟨S64, .f32⟩ : BufTy).Contents (Elt Ideal)

/-! ## The positive part -/

/-- A hidden layer keeps the positive part. -/
theorem act_true (y : EReal) : Sage.act true y = max y (Ideal.ofBits .f32 0x00000000#32) := if_pos rfl

/-- The last layer keeps the number. -/
theorem act_false (y : EReal) : Sage.act false y = y := if_neg Bool.false_ne_true

/-! ## Layer one -/

/-- The first layer's row before normalisation, one element: the reference adds the bias between the two products. -/
theorem pre1 (x0 : A) (x1 : E) (x2 : W) (x3 : B) (x4 : W) (p : Fin 100000) (j : Fin 128) :
    val_main_v28 (F := Ideal) x0 x1 x2 x3 x4 (ix2 p j)
      = Sage.pre (fun k => val_main_v22 (F := Ideal) x0 x1 (ix2 p k)) (fun k => x0 (ix2 p k))
          (fun k q => x2 (ix2 k q)) (fun k q => x4 (ix2 k q)) (fun q => x3 (ix1 q)) j := by
  rw [val_main_v28_apply, val_main_v26_apply, val_main_v23_apply, val_main_v25_apply, val_main_v24_apply,
    val_main_v27_apply]
  have e1 : ∀ k : Fin 128, lidx_main_v23 (ix2 p j) k = ix2 p k := fun k =>
    funext fun a => by match a with | ⟨0, _⟩ => rfl | ⟨1, _⟩ => rfl
  have e2 : ∀ k : Fin 128, ridx_main_v23 (ix2 p j) k = ix2 k j := fun k =>
    funext fun a => by match a with | ⟨0, _⟩ => rfl | ⟨1, _⟩ => rfl
  have e3 : ∀ k : Fin 128, lidx_main_v27 (ix2 p j) k = ix2 p k := fun k =>
    funext fun a => by match a with | ⟨0, _⟩ => rfl | ⟨1, _⟩ => rfl
  have e4 : ∀ k : Fin 128, ridx_main_v27 (ix2 p j) k = ix2 k j := fun k =>
    funext fun a => by match a with | ⟨0, _⟩ => rfl | ⟨1, _⟩ => rfl
  have e5 : idx_main_v24 (idx_main_v25 (ix2 p j)) = ix1 j :=
    funext fun a => by match a with | ⟨0, _⟩ => rfl
  simp only [e1, e2, e3, e4, e5, Ideal.addf_def]
  exact add_right_comm _ _ _

/-- The first layer's sum of squares along a row: the sum starts from the constant zero. -/
theorem sq1 (x0 : A) (x1 : E) (x2 : W) (x3 : B) (x4 : W) (p : Fin 100000) :
    val_main_call0_v1 (F := Ideal) x0 x1 x2 x3 x4 (ix1 p)
      = ∑ j : Fin 128, val_main_v28 (F := Ideal) x0 x1 x2 x3 x4 (ix2 p j)
          * val_main_v28 (F := Ideal) x0 x1 x2 x3 x4 (ix2 p j) := by
  rw [val_main_call0_v1_apply, val_main_call0_cst_apply, Ideal.ofBits_def, Ideal.ofBits_zero_f32, zero_add]
  refine Finset.sum_congr rfl fun j _ => ?_
  have e : idx_main_call0_v1 (ix1 p) j = ix2 p j :=
    funext fun a => by match a with | ⟨0, _⟩ => rfl | ⟨1, _⟩ => rfl
  rw [val_main_call0_v0_apply, Ideal.mulf_def, e]

/-- The first layer's divisor: the root of the row's sum of squares, floored. -/
theorem norm1 (x0 : A) (x1 : E) (x2 : W) (x3 : B) (x4 : W) (p : Fin 100000) (q : Fin 128) :
    val_main_v32 (F := Ideal) x0 x1 x2 x3 x4 (ix2 p q)
      = max (Ideal.sqrt (∑ j : Fin 128, val_main_v28 (F := Ideal) x0 x1 x2 x3 x4 (ix2 p j)
          * val_main_v28 (F := Ideal) x0 x1 x2 x3 x4 (ix2 p j))) Sage.eps := by
  have e : idx_main_call0_v2 (idx_main_v32 (ix2 p q)) = ix1 p :=
    funext fun a => by match a with | ⟨0, _⟩ => rfl
  rw [val_main_v32_apply, val_main_v31_apply, val_main_v29_apply, val_main_call0_v2_apply, e, sq1,
    val_main_v30_apply, val_main_cst_4_apply, Ideal.maximumf_def, Ideal.hostUnary_sqrt_def, Ideal.ofBits_def]
  unfold Sage.eps
  rfl

/-- The first layer is the specification's layer on the reference's own neighbourhood mean. -/
theorem layer1 (x0 : A) (x1 : E) (x2 : W) (x3 : B) (x4 : W) :
    val_main_v34 (F := Ideal) x0 x1 x2 x3 x4
      = Sage.dense true (val_main_v22 (F := Ideal) x0 x1) x0 x2 x4 (fun q => x3 (ix1 q)) := by
  funext i
  obtain ⟨p, q, rfl⟩ : ∃ (p : Fin 100000) (q : Fin 128), i = ix2 p q := ⟨i 0, i 1, eq_ix2 i⟩
  rw [Sage.dense_apply, val_main_v34_apply, val_main_v33_apply, norm1, val_main_call1_v0_apply,
    val_main_call1_cst_apply, Ideal.maximumf_def, Ideal.hostDivf_def, Ideal.ofBits_def]
  simp only [pre1]
  unfold Sage.row Sage.unit
  exact (act_true _).symm

/-- The second layer's neighbourhood mean is the first layer's chain of operations on the first layer's result. -/
theorem mean2 (x0 : A) (x1 : E) (x2 : W) (x3 : B) (x4 : W) :
    val_main_v53 (F := Ideal) x0 x1 x2 x3 x4
      = val_main_v22 (F := Ideal) (val_main_v34 (F := Ideal) x0 x1 x2 x3 x4) x1 := rfl

/-! ## Layer two -/

/-- The second layer's row before normalisation, one element: the reference adds the bias between the two products. -/
theorem pre2 (x0 : A) (x1 : E) (x2 : W) (x3 : B) (x4 x5 : W) (x6 : B) (x7 : W) (p : Fin 100000) (j : Fin 128) :
    val_main_v59 (F := Ideal) x0 x1 x2 x3 x4 x5 x6 x7 (ix2 p j)
      = Sage.pre (fun k => val_main_v53 (F := Ideal) x0 x1 x2 x3 x4 (ix2 p k)) (fun k => val_main_v34 (F := Ideal) x0 x1 x2 x3 x4 (ix2 p k))
          (fun k q => x5 (ix2 k q)) (fun k q => x7 (ix2 k q)) (fun q => x6 (ix1 q)) j := by
  rw [val_main_v59_apply, val_main_v57_apply, val_main_v54_apply, val_main_v56_apply,
    val_main_v55_apply, val_main_v58_apply]
  have e1 : ∀ k : Fin 128, lidx_main_v54 (ix2 p j) k = ix2 p k := fun k =>
    funext fun a => by match a with | ⟨0, _⟩ => rfl | ⟨1, _⟩ => rfl
  have e2 : ∀ k : Fin 128, ridx_main_v54 (ix2 p j) k = ix2 k j := fun k =>
    funext fun a => by match a with | ⟨0, _⟩ => rfl | ⟨1, _⟩ => rfl
  have e3 : ∀ k : Fin 128, lidx_main_v58 (ix2 p j) k = ix2 p k := fun k =>
    funext fun a => by match a with | ⟨0, _⟩ => rfl | ⟨1, _⟩ => rfl
  have e4 : ∀ k : Fin 128, ridx_main_v58 (ix2 p j) k = ix2 k j := fun k =>
    funext fun a => by match a with | ⟨0, _⟩ => rfl | ⟨1, _⟩ => rfl
  have e5 : idx_main_v55 (idx_main_v56 (ix2 p j)) = ix1 j :=
    funext fun a => by match a with | ⟨0, _⟩ => rfl
  simp only [e1, e2, e3, e4, e5, Ideal.addf_def]
  exact add_right_comm _ _ _

/-- The second layer's sum of squares along a row: the sum starts from the constant zero. -/
theorem sq2 (x0 : A) (x1 : E) (x2 : W) (x3 : B) (x4 x5 : W) (x6 : B) (x7 : W) (p : Fin 100000) :
    val_main_call2_v1 (F := Ideal) x0 x1 x2 x3 x4 x5 x6 x7 (ix1 p)
      = ∑ j : Fin 128, val_main_v59 (F := Ideal) x0 x1 x2 x3 x4 x5 x6 x7 (ix2 p j)
          * val_main_v59 (F := Ideal) x0 x1 x2 x3 x4 x5 x6 x7 (ix2 p j) := by
  rw [val_main_call2_v1_apply, val_main_call2_cst_apply, Ideal.ofBits_def, Ideal.ofBits_zero_f32, zero_add]
  refine Finset.sum_congr rfl fun j _ => ?_
  have e : idx_main_call2_v1 (ix1 p) j = ix2 p j :=
    funext fun a => by match a with | ⟨0, _⟩ => rfl | ⟨1, _⟩ => rfl
  rw [val_main_call2_v0_apply, Ideal.mulf_def, e]

/-- The second layer's divisor: the root of the row's sum of squares, floored. -/
theorem norm2 (x0 : A) (x1 : E) (x2 : W) (x3 : B) (x4 x5 : W) (x6 : B) (x7 : W) (p : Fin 100000) (q : Fin 128) :
    val_main_v63 (F := Ideal) x0 x1 x2 x3 x4 x5 x6 x7 (ix2 p q)
      = max (Ideal.sqrt (∑ j : Fin 128, val_main_v59 (F := Ideal) x0 x1 x2 x3 x4 x5 x6 x7 (ix2 p j)
          * val_main_v59 (F := Ideal) x0 x1 x2 x3 x4 x5 x6 x7 (ix2 p j))) Sage.eps := by
  have e : idx_main_call2_v2 (idx_main_v63 (ix2 p q)) = ix1 p :=
    funext fun a => by match a with | ⟨0, _⟩ => rfl
  rw [val_main_v63_apply, val_main_v62_apply, val_main_v60_apply, val_main_call2_v2_apply, e, sq2,
    val_main_v61_apply, val_main_cst_11_apply, Ideal.maximumf_def, Ideal.hostUnary_sqrt_def, Ideal.ofBits_def]
  unfold Sage.eps
  rfl

/-- The second layer is the specification's layer on the first layer's result and its neighbourhood mean. -/
theorem layer2 (x0 : A) (x1 : E) (x2 : W) (x3 : B) (x4 x5 : W) (x6 : B) (x7 : W) :
    val_main_v65 (F := Ideal) x0 x1 x2 x3 x4 x5 x6 x7
      = Sage.dense true (val_main_v53 (F := Ideal) x0 x1 x2 x3 x4) (val_main_v34 (F := Ideal) x0 x1 x2 x3 x4) x5 x7
          (fun q => x6 (ix1 q)) := by
  funext i
  obtain ⟨p, q, rfl⟩ : ∃ (p : Fin 100000) (q : Fin 128), i = ix2 p q := ⟨i 0, i 1, eq_ix2 i⟩
  rw [Sage.dense_apply, val_main_v65_apply, val_main_v64_apply, norm2, val_main_call3_v0_apply,
    val_main_call3_cst_apply, Ideal.maximumf_def, Ideal.hostDivf_def, Ideal.ofBits_def]
  simp only [pre2]
  unfold Sage.row Sage.unit
  exact (act_true _).symm

/-- The third layer's neighbourhood mean is the first layer's chain of operations on the second layer's result. -/
theorem mean3 (x0 : A) (x1 : E) (x2 : W) (x3 : B) (x4 x5 : W) (x6 : B) (x7 : W) :
    val_main_v84 (F := Ideal) x0 x1 x2 x3 x4 x5 x6 x7
      = val_main_v22 (F := Ideal) (val_main_v65 (F := Ideal) x0 x1 x2 x3 x4 x5 x6 x7) x1 := rfl

/-! ## Layer three -/

/-- The third layer's row before normalisation, one element: the reference adds the bias between the two products. -/
theorem pre3 (x0 : A) (x1 : E) (x2 : W) (x3 : B) (x4 x5 : W) (x6 : B) (x7 : W) (x8 : W') (x9 : B') (x10 : W') (p : Fin 100000) (j : Fin 64) :
    val_main_v90 (F := Ideal) x0 x1 x2 x3 x4 x5 x6 x7 x8 x9 x10 (ix2 p j)
      = Sage.pre (fun k => val_main_v84 (F := Ideal) x0 x1 x2 x3 x4 x5 x6 x7 (ix2 p k)) (fun k => val_main_v65 (F := Ideal) x0 x1 x2 x3 x4 x5 x6 x7 (ix2 p k))
          (fun k q => x8 (ix2 k q)) (fun k q => x10 (ix2 k q)) (fun q => x9 (ix1 q)) j := by
  rw [val_main_v90_apply, val_main_v88_apply, val_main_v85_apply, val_main_v87_apply,
    val_main_v86_apply, val_main_v89_apply]
  have e1 : ∀ k : Fin 128, lidx_main_v85 (ix2 p j) k = ix2 p k := fun k =>
    funext fun a => by match a with | ⟨0, _⟩ => rfl | ⟨1, _⟩ => rfl
  have e2 : ∀ k : Fin 128, ridx_main_v85 (ix2 p j) k = ix2 k j := fun k =>
    funext fun a => by match a with | ⟨0, _⟩ => rfl | ⟨1, _⟩ => rfl
  have e3 : ∀ k : Fin 128, lidx_main_v89 (ix2 p j) k = ix2 p k := fun k =>
    funext fun a => by match a with | ⟨0, _⟩ => rfl | ⟨1, _⟩ => rfl
  have e4 : ∀ k : Fin 128, ridx_main_v89 (ix2 p j) k = ix2 k j := fun k =>
    funext fun a => by match a with | ⟨0, _⟩ => rfl | ⟨1, _⟩ => rfl
  have e5 : idx_main_v86 (idx_main_v87 (ix2 p j)) = ix1 j :=
    funext fun a => by match a with | ⟨0, _⟩ => rfl
  simp only [e1, e2, e3, e4, e5, Ideal.addf_def]
  exact add_right_comm _ _ _

/-- The third layer's sum of squares along a row: the sum starts from the constant zero. -/
theorem sq3 (x0 : A) (x1 : E) (x2 : W) (x3 : B) (x4 x5 : W) (x6 : B) (x7 : W) (x8 : W') (x9 : B') (x10 : W') (p : Fin 100000) :
    val_main_call4_v1 (F := Ideal) x0 x1 x2 x3 x4 x5 x6 x7 x8 x9 x10 (ix1 p)
      = ∑ j : Fin 64, val_main_v90 (F := Ideal) x0 x1 x2 x3 x4 x5 x6 x7 x8 x9 x10 (ix2 p j)
          * val_main_v90 (F := Ideal) x0 x1 x2 x3 x4 x5 x6 x7 x8 x9 x10 (ix2 p j) := by
  rw [val_main_call4_v1_apply, val_main_call4_cst_apply, Ideal.ofBits_def, Ideal.ofBits_zero_f32, zero_add]
  refine Finset.sum_congr rfl fun j _ => ?_
  have e : idx_main_call4_v1 (ix1 p) j = ix2 p j :=
    funext fun a => by match a with | ⟨0, _⟩ => rfl | ⟨1, _⟩ => rfl
  rw [val_main_call4_v0_apply, Ideal.mulf_def, e]

/-- The third layer's divisor: the root of the row's sum of squares, floored. -/
theorem norm3 (x0 : A) (x1 : E) (x2 : W) (x3 : B) (x4 x5 : W) (x6 : B) (x7 : W) (x8 : W') (x9 : B') (x10 : W') (p : Fin 100000) (q : Fin 64) :
    val_main_v94 (F := Ideal) x0 x1 x2 x3 x4 x5 x6 x7 x8 x9 x10 (ix2 p q)
      = max (Ideal.sqrt (∑ j : Fin 64, val_main_v90 (F := Ideal) x0 x1 x2 x3 x4 x5 x6 x7 x8 x9 x10 (ix2 p j)
          * val_main_v90 (F := Ideal) x0 x1 x2 x3 x4 x5 x6 x7 x8 x9 x10 (ix2 p j))) Sage.eps := by
  have e : idx_main_call4_v2 (idx_main_v94 (ix2 p q)) = ix1 p :=
    funext fun a => by match a with | ⟨0, _⟩ => rfl
  rw [val_main_v94_apply, val_main_v93_apply, val_main_v91_apply, val_main_call4_v2_apply, e, sq3,
    val_main_v92_apply, val_main_cst_18_apply, Ideal.maximumf_def, Ideal.hostUnary_sqrt_def, Ideal.ofBits_def]
  unfold Sage.eps
  rfl

/-- The third layer is the specification's last layer on the second layer's result and its neighbourhood mean. -/
theorem layer3 (x0 : A) (x1 : E) (x2 : W) (x3 : B) (x4 x5 : W) (x6 : B) (x7 : W) (x8 : W') (x9 : B') (x10 : W') :
    val_main_v95 (F := Ideal) x0 x1 x2 x3 x4 x5 x6 x7 x8 x9 x10
      = Sage.dense false (val_main_v84 (F := Ideal) x0 x1 x2 x3 x4 x5 x6 x7) (val_main_v65 (F := Ideal) x0 x1 x2 x3 x4 x5 x6 x7) x8 x10
          (fun q => x9 (ix1 q)) := by
  funext i
  obtain ⟨p, q, rfl⟩ : ∃ (p : Fin 100000) (q : Fin 64), i = ix2 p q := ⟨i 0, i 1, eq_ix2 i⟩
  rw [Sage.dense_apply, val_main_v95_apply, norm3, Ideal.hostDivf_def]
  simp only [pre3]
  unfold Sage.row Sage.unit
  exact (act_false _).symm

/-! ## The network -/

/-- The reference program's result is the specification's network over the reference's own neighbourhood mean. -/
theorem ref_value (x0 : A) (x1 : E) (x2 : W) (x3 : B) (x4 x5 : W) (x6 : B) (x7 : W) (x8 : W') (x9 : B') (x10 : W') :
    val_main_v95 (F := Ideal) x0 x1 x2 x3 x4 x5 x6 x7 x8 x9 x10
      = Sage.net (fun f => val_main_v22 (F := Ideal) f x1) x0 x2 x3 x4 x5 x6 x7 x8 x9 x10 := by
  unfold Sage.net
  rw [layer3, mean3, layer2, mean2, layer1]

end Cert.ReferenceIdeal.RefValue

end
-- ==== Proof.lean ====
/-
  Three GraphSAGE layers on 100000 nodes and 1600000 edges: a kernel program against its reference, on the extended reals.

  Each layer takes a feature array `X`, forms the mean of `X` over every node's in-neighbours (a gather along the edges'
  sources, a sum at their destinations, a division by the in-degree floored at one), and computes
  `mean · Wl + X · Wr + b` row by row, each row then divided by its Euclidean norm floored at about `1e-12`; the two
  hidden layers keep the positive part. The kernel program does the gather and the sum on the host and the rest of a
  layer in a kernel over blocks of 5000 nodes; the reference does everything on the host.

  The two differ in two places only. The kernel program multiplies the neighbourhood sums by `1 / max(deg, 1)` where the
  reference divides by `max(deg, 1)`: the same on every extended real because `max(deg, 1)` is not zero. And the kernel
  adds the bias after the second product where the reference adds it between the two: addition of extended reals is
  commutative and associative. Neither needs the inputs to be finite, so the precondition is never opened.

  The kernel program's result is read off its frame run (`KernelValue`), the reference's off its run (`RefValue`); both
  are `Sage.net` of the arguments over the same neighbourhood mean. No operation of the kernel was rewritten by the
  idealisation, so there is nothing to preserve.
-/
import proofs.«127516_j40020505264508_1_alg».proof.Defs
import proofs.«127516_j40020505264508_1_alg».proof.Proof.Gen.Kernel
import proofs.«127516_j40020505264508_1_alg».proof.Proof.Gen.Kernel.Skeleton
import proofs.«127516_j40020505264508_1_alg».proof.Proof.Gen.Kernel.Launch
import proofs.«127516_j40020505264508_1_alg».proof.Proof.Gen.Kernel.Points
import proofs.«127516_j40020505264508_1_alg».proof.Proof.Gen.Kernel.Frame
import proofs.«127516_j40020505264508_1_alg».proof.Proof.Gen.KernelIdeal
import proofs.«127516_j40020505264508_1_alg».proof.Proof.Gen.KernelIdeal.Skeleton
import proofs.«127516_j40020505264508_1_alg».proof.Proof.Gen.KernelIdeal.Launch
import proofs.«127516_j40020505264508_1_alg».proof.Proof.Gen.KernelIdeal.Points
import proofs.«127516_j40020505264508_1_alg».proof.Proof.Gen.KernelIdeal.Frame
import proofs.«127516_j40020505264508_1_alg».proof.Proof.Gen.ReferenceIdeal
import proofs.«127516_j40020505264508_1_alg».proof.Proof.Gen.ReferenceIdeal.Run
import proofs.«127516_j40020505264508_1_alg».proof.Proof.Gen.ReferenceIdeal.Read
import proofs.«127516_j40020505264508_1_alg».proof.Proof.Gen.Pre_finite_inputs
import proofs.«127516_j40020505264508_1_alg».proof.Proof.KernelValue
import proofs.«127516_j40020505264508_1_alg».proof.Proof.RefValue
import Idealize.ShloMosaic.Adequacy
import Idealize.ShloMosaic.Init

noncomputable section

namespace Cert.Proof

open Idealize.ShloMosaic Idealize.SL.Sem

/-- The printed kernel program runs and leaves its arguments as launched. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- So does the idealized reference: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealisation rewrote nothing. -/
theorem preserves : Cert.preserves_Kernel_KernelIdeal := trivial

/-- From memories agreeing on the arguments both programs end with the same network of the arguments. -/
theorem algebraic : Cert.algebraic_KernelIdeal_ReferenceIdeal := by
  intro m ρ m' ρ' _ hagree
  refine ⟨fun c => Cert.KernelIdeal.KernelValue.out m c,
    (θ_run Cert.KernelIdeal.defs _ _).mono
      (fun r h c => ⟨(h c).1.trans (Cert.KernelIdeal.KernelValue.result_eq m ρ c), (h c).2⟩)
      (Cert.KernelIdeal.GenP.frame_result m ρ), ?_⟩
  refine (θ_run Cert.ReferenceIdeal.defs _ _).mono (fun r h c => ⟨?_, (h c).2⟩)
    (Cert.ReferenceIdeal.Value.run (F := Ideal) m' ρ')
  obtain ⟨a0, a1, a2, a3, a4, a5, a6, a7, a8, a9, a10⟩ := hagree c
  rw [(h c).1, Cert.ReferenceIdeal.Read.val_main_v95_eq, Cert.ReferenceIdeal.RefValue.ref_value,
    a0, a1, a2, a3, a4, a5, a6, a7, a8, a9, a10]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
